-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S8192x4096 : Shape := ⟨2, ![8192, 4096]⟩
abbrev S1x4096 : Shape := ⟨2, ![1, 4096]⟩
abbrev S2048x256 : Shape := ⟨2, ![2048, 256]⟩
abbrev S1024x256 : Shape := ⟨2, ![1024, 256]⟩
abbrev S1x1024 : Shape := ⟨2, ![1, 1024]⟩
abbrev S2048x1024 : Shape := ⟨2, ![2048, 1024]⟩

abbrev nBuf : Space → Nat
  | .hbm => 46
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096x4096, .f32⟩
  | .hbm, ⟨22, _⟩ => ⟨S4096x4096, .i1⟩
  | .hbm, ⟨23, _⟩ => ⟨S4096x4096, .f32⟩
  | .hbm, ⟨24, _⟩ => ⟨S4096x4096, .i1⟩
  | .hbm, ⟨25, _⟩ => ⟨S4096x4096, .i1⟩
  | .hbm, ⟨26, _⟩ => ⟨S4096x4096, .i1⟩
  | .hbm, ⟨27, _⟩ => ⟨S4096x4096, .i32⟩
  | .hbm, ⟨28, _⟩ => ⟨S_, .i32⟩
  | .hbm, ⟨29, _⟩ => ⟨S_, .i32⟩
  | .hbm, ⟨30, _⟩ => ⟨S_, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .bf16⟩
  | .hbm, ⟨42, _⟩ => ⟨S8192x4096, .f32⟩
  | .hbm, ⟨43, _⟩ => ⟨S1x4096, .f32⟩
  | .hbm, ⟨44, _⟩ => ⟨S8192x4096, .f32⟩
  | .hbm, ⟨45, _⟩ => ⟨S4x2048x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .bf16⟩
  | .local _ .vmem, ⟨3, _⟩ => ⟨S1024x256, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst_1 : Ref sig .tc := ⟨.hbm, 10, rfl⟩
abbrev main_call0_v5 : Ref sig .tc := ⟨.hbm, 11, rfl⟩
abbrev main_call0_cst_2 : Ref sig .tc := ⟨.hbm, 12, rfl⟩
abbrev main_call0_v6 : Ref sig .tc := ⟨.hbm, 13, rfl⟩
abbrev main_call0_v7 : Ref sig .tc := ⟨.hbm, 14, rfl⟩
abbrev main_call0_cst_3 : Ref sig .tc := ⟨.hbm, 15, rfl⟩
abbrev main_call0_v8 : Ref sig .tc := ⟨.hbm, 16, rfl⟩
abbrev main_call0_v9 : Ref sig .tc := ⟨.hbm, 17, rfl⟩
abbrev main_call0_cst_4 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_c : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_cst_5 : Ref sig .tc := ⟨.hbm, 32, rfl⟩
abbrev main_call0_call0_v0 : Ref sig .tc := ⟨.hbm, 33, rfl⟩
abbrev main_call0_v22 : Ref sig .tc := ⟨.hbm, 34, rfl⟩
abbrev main_call0_cst_6 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_v30 : Ref sig .tc := ⟨.hbm, 43, rfl⟩
abbrev main_call0_v31 : Ref sig .tc := ⟨.hbm, 44, rfl⟩
abbrev main_v0 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  natLt_1_32 : 1 < 32
  bitsLt_bf16_f32 : FTy.bits .bf16 < FTy.bits .f32
  shapeCasts_S4x2048x4096_S8192x4096 : S4x2048x4096.ShapeCasts S8192x4096
  shapeCasts_S4096_S1x4096 : S4096.ShapeCasts S1x4096
  shapeCasts_S8192x4096_S4x2048x4096 : S8192x4096.ShapeCasts S4x2048x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .bf16 = 32 ∨ (Rect.block (s := S4096x4096) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_call0_v29) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v28) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v30) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v31) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S1x1 : Shape := ⟨2, ![1, 1]⟩
abbrev S1x1x4096 : Shape := ⟨3, ![1, 1, 4096]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .i32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S1x1, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4096x4096, .f32⟩
  | .hbm, ⟨36, _⟩ => ⟨S4096x4096, .i1⟩
  | .hbm, ⟨37, _⟩ => ⟨S4096x4096, .f32⟩
  | .hbm, ⟨38, _⟩ => ⟨S4096x4096, .i1⟩
  | .hbm, ⟨39, _⟩ => ⟨S4096x4096, .i1⟩
  | .hbm, ⟨40, _⟩ => ⟨S4096x4096, .i1⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4x2048x4096, .f32⟩
  | .hbm, ⟨53, _⟩ => ⟨S1x1x4096, .f32⟩
  | .hbm, ⟨54, _⟩ => ⟨S4x2048x4096, .f32⟩
  | .hbm, ⟨55, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_c : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_cst_0 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_cst_1 : Ref sig .tc := ⟨.hbm, 18, rfl⟩
abbrev main_call0_call0_v8 : Ref sig .tc := ⟨.hbm, 19, rfl⟩
abbrev main_call0_call0_cst_2 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_cst_3 : Ref sig .tc := ⟨.hbm, 23, rfl⟩
abbrev main_call0_call0_v11 : Ref sig .tc := ⟨.hbm, 24, rfl⟩
abbrev main_call0_call0_cst_4 : Ref sig .tc := ⟨.hbm, 25, rfl⟩
abbrev main_call0_call0_call0_v0 : Ref sig .tc := ⟨.hbm, 26, rfl⟩
abbrev main_call0_v0 : Ref sig .tc := ⟨.hbm, 27, rfl⟩
abbrev main_v2 : Ref sig .tc := ⟨.hbm, 28, rfl⟩
abbrev main_cst_1 : Ref sig .tc := ⟨.hbm, 29, rfl⟩
abbrev main_v3 : Ref sig .tc := ⟨.hbm, 30, rfl⟩
abbrev main_v4 : Ref sig .tc := ⟨.hbm, 31, rfl⟩
abbrev main_cst_2 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_3 : Ref sig .tc := ⟨.hbm, 44, rfl⟩
abbrev main_v16 : Ref sig .tc := ⟨.hbm, 45, rfl⟩
abbrev main_cst_4 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  bcast_S_S1x1 : S_.BroadcastsInDim S1x1 (![] : Fin 0 → Fin S1x1.rank)
  bcast_S1x1_S4096x4096_0_1 : S1x1.BroadcastsInDim S4096x4096 (![0, 1] : Fin 2 → Fin S4096x4096.rank)
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KernelPieces.lean ====
/-
  What the kernel body leaves behind at one grid point, case by case.

  The body keeps a [2048, 1024] accumulator in scratch memory.  With x the point's [2048, 256] block of activations
  and wt its [1024, 256] block of weights, the body adds the product x · wtᵀ (formed on the matrix unit into a zero
  matrix) to the accumulator; at a point whose contraction coordinate is 0 it first overwrites the accumulator
  with zeros, and at a point whose contraction coordinate is 15 it afterwards stores accumulator + bias row into
  the output block.  The three control cases (first / middle / last contraction step) therefore leave:
    first  : accumulator = update (zeros),
    middle : accumulator = update (accumulator before),
    last   : accumulator = update (accumulator before), output block = that + bias row,
  where update and "plus bias row" are the body's two pure payload terms.  Each statement reads the case's stores
  back through the whole buffer: the last store covers it.
-/
import proofs.«100241_j53824530153497_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- A middle step: the accumulator becomes the update of what it held. -/
theorem scratch_mid (c : Dev nD) (i : grid0.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : ¬cond0_1 i)
    (x0 : Vec F S2048x256 .f32) (x1 : Vec F S1024x256 .bf16) (x2 : Vec F S1x1024 .f32) (xs0 : Vec F S2048x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg3.read_unread, harg4.read_unread, harg5.read_unread, harg7.read_unread,
    View.ld_unit_zero (S := S2048x256) hz, View.ld_unit_zero (S := S1024x256) hz, View.ld_unit_zero (S := S1x1024) hz,
    View.ld_unit_zero (S := S2048x1024) hz]

/-- The first step: the accumulator is zeroed, read back, and becomes the update of the zeros. -/
theorem scratch_first (c : Dev nD) (i : grid0.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond0_0 i) (hc1 : ¬cond0_1 i)
    (x0 : Vec F S2048x256 .f32) (x1 : Vec F S1024x256 .bf16) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, harg5.read_unread, harg7.read_unread,
    View.ld_unit_zero (S := S2048x256) hz, View.ld_unit_zero (S := S1024x256) hz, View.ld_unit_zero (S := S1x1024) hz,
    View.ld_unit_zero (S := S2048x1024) hz]

/-- The last step: the accumulator becomes the update of what it held, -/
theorem scratch_last (c : Dev nD) (i : grid0.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x256 .f32) (x1 : Vec F S1024x256 .bf16) (x2 : Vec F S1x1024 .f32) (xs0 : Vec F S2048x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread,
    View.ld_unit_zero (S := S2048x256) hz, View.ld_unit_zero (S := S1024x256) hz, View.ld_unit_zero (S := S1x1024) hz,
    View.ld_unit_zero (S := S2048x1024) hz]

/-- and the output block is that accumulator plus the bias row. -/
theorem out_last (c : Dev nD) (i : grid0.Coords) (arg3 : Memref sig .tc .vmem S2048x256 .f32) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x256 .f32) (x1 : Vec F S1024x256 .bf16) (x2 : Vec F S1x1024 .f32) (xs0 : Vec F S2048x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S2048x1024) _ hz]
  simp only [View.readAt_eq_ld, harg3.read_unread, harg4.read_unread, harg5.read_unread, harg7.read_unread,
    View.ld_unit_zero (S := S2048x256) hz, View.ld_unit_zero (S := S1024x256) hz, View.ld_unit_zero (S := S1x1024) hz,
    View.ld_unit_zero (S := S2048x1024) hz]

end Cert.KernelIdeal.Pieces
end
-- ==== Proof.LibOneAxisDot.lean ====
/-
  A matrix product that contracts ONE axis, read at one output index, at the extended reals.

  Whatever the dimension numbers are (which axis of each operand is contracted, in which order the free axes
  appear in the result), once the contraction has a single axis of extent K the product's entry at an output
  index j is a sum over k < K of a left entry times a right entry: the left operand read at the index the
  dimension numbers assign to (j, k), the right operand likewise. The two families of operand indices are
  parameters here; each concrete product supplies them (for x · wᵀ they are (r, k) and (c, k), for x · w they
  are (r, k) and (k, c)). No finiteness is asked of any entry: only the index set of the sum is renamed.
-/
import Idealize.ShloMosaic.PureOps.Ideal.Laws
import Idealize.ShloMosaic.Lib.ValueIdx

noncomputable section

open scoped BigOperators

namespace Cert.Lib.OneAxisDot

open Idealize.ShloMosaic Idealize.ShloMosaic.ValueIdx

/-- The contraction's sum, indexed by the dimension numbers' own one-axis contraction index, is the sum over
    k < K of l(li k) · r(ri k), when li k and ri k are the operand indices at the k-th contraction index. -/
theorem contraction_sum_at {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- A matrix unit's product accumulated into the zero matrix, at output index j: the zero adds nothing, and the
    rest is the contraction's sum. -/
theorem matmul_zero_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    matmul d prec l r (constant so .f32 0x00000000#32) j = ∑ k : Fin K, l (li k) * r (ri k) :=
  (Ideal.matmul_constant_zero_apply d prec l r j).trans (contraction_sum_at d K hr hs l r j li ri hl hrr)

/-- The host's dot_general at output index j: the same sum, with no accumulator. -/
theorem dotGeneral_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    Host.dotGeneral d prec l r j = ∑ k : Fin K, l (li k) * r (ri k) :=
  (Ideal.dotGeneral_apply d prec .single l r j).trans (contraction_sum_at d K hr hs l r j li ri hl hrr)

end Cert.Lib.OneAxisDot

end
-- ==== Proof.LibDotFreeAxis.lean ====
/-
  The free (non-contracted, non-batch) axes of a matrix product's operand indices.

  A product's dimension numbers say, for every axis of each operand, where its coordinate comes from: a free axis of
  the left operand reads the output index at the axis's place among the left free axes (after the batch axes), a free
  axis of the right operand reads it after all of the left operand's. With no batch axes and one free axis on each
  side, the left operand's free coordinate is the output's coordinate 0 and the right operand's is the output's
  coordinate 1, whatever the contraction position is. These are the companions, for the free axes, of the
  library's statements about the single contracted axis.
-/
import Idealize.ShloMosaic.PureOps.Dims

namespace Cert.Lib.DotFreeAxis

open Idealize.ShloMosaic

variable {sl sr so : Shape} (d : DotDims sl sr so)

/-- No batch axes, one left free axis a: the left operand's coordinate on a is the output's coordinate 0. -/
theorem lhsIdx_val_of_free {a : Fin sl.rank} (hb : d.lhsBatch = []) (hn : d.lhsNonContracting = [a])
    (h0 : 0 < so.rank) (j : so.Idx) (k : d.contr.Idx) :
    (d.lhsIdx j k a).val = (j ⟨0, h0⟩).val := by
  have h1 : a ∉ d.lhsBatch := by rw [hb]; exact List.not_mem_nil
  have h2 : a ∈ d.lhsNonContracting := by rw [hn]; exact List.mem_singleton.mpr rfl
  unfold DotDims.lhsIdx
  rw [dif_neg h1, dif_pos h2]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- No batch axes, one free axis on each side: the right operand's coordinate on its free axis a is the output's
    coordinate 1. -/
theorem rhsIdx_val_of_free {a : Fin sr.rank} {a' : Fin sl.rank} (hb : d.lhsBatch = []) (hb' : d.rhsBatch = [])
    (hn' : d.lhsNonContracting = [a']) (hn : d.rhsNonContracting = [a])
    (h1 : 1 < so.rank) (j : so.Idx) (k : d.contr.Idx) :
    (d.rhsIdx j k a).val = (j ⟨1, h1⟩).val := by
  have h2 : a ∉ d.rhsBatch := by rw [hb']; exact List.not_mem_nil
  have h3 : a ∈ d.rhsNonContracting := by rw [hn]; exact List.mem_singleton.mpr rfl
  unfold DotDims.rhsIdx
  rw [dif_neg h2, dif_pos h3]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn', hn])

end Cert.Lib.DotFreeAxis
-- ==== Proof.KernelPayload.lean ====
/-
  The kernel body's three pure values, read entry by entry at the extended reals.

  The zero block is 0 everywhere.  The update of an accumulator acc by a [2048, 256] activation block x and a
  [1024, 256] weight block wt has, at (p, q), the entry acc(p, q) + the dot product over the block's 256 columns of
  row p of x with row q of wt: the matrix unit's product into a zero matrix is that dot product (the narrowing of x
  to a shorter float format is the identity on extended reals), and the reshapes to the same shape do nothing.
  Adding the [1, 1024] bias row puts bias(0, q) on every row.
-/
import proofs.«100241_j53824530153497_2_alg».proof.Proof.Gen.KernelIdeal.Skeleton
import proofs.«100241_j53824530153497_2_alg».proof.Proof.LibOneAxisDot
import proofs.«100241_j53824530153497_2_alg».proof.Proof.LibDotFreeAxis
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload
open Cert.KernelIdeal Cert.KernelIdeal.Gen Cert.KernelIdeal.Facts₀

/-- The zero block. -/
theorem zero_apply (y : S2048x1024.Idx) : k0_pay1 (F := Ideal) y = 0 := by
  unfold k0_pay1
  rw [shapeCast_self]
  show Ideal.ofBits .f32 0x00000000#32 = 0
  exact Ideal.ofBits_zero_f32

/-- The left operand's index at output (p, q) and contraction position k is (p, k). -/
theorem lhs_index (p : Fin 2048) (q : Fin 1024) (hr) (hs) (k : Fin 256) :
    dot_S2048x256_S1024x256_S2048x1024_1_1_0_0_n_n.lhsIdx (ix2 p q)
      ((contrEquiv1 dot_S2048x256_S1024x256_S2048x1024_1_1_0_0_n_n 256 hr hs).symm k) = ix2 p k := by
  funext a
  apply Fin.ext
  match a with
  | ⟨0, _⟩ =>
    exact Cert.Lib.DotFreeAxis.lhsIdx_val_of_free dot_S2048x256_S1024x256_S2048x1024_1_1_0_0_n_n (a := 0) rfl rfl (by decide)
      (ix2 p q) _
  | ⟨1, _⟩ =>
    exact (DotDims.lhsIdx_val_of_single dot_S2048x256_S1024x256_S2048x1024_1_1_0_0_n_n (cl := 1) rfl (ix2 p q) _).trans
      (contrEquiv1_symm_val dot_S2048x256_S1024x256_S2048x1024_1_1_0_0_n_n 256 hr hs k)

/-- The right operand's index there is (q, k). -/
theorem rhs_index (p : Fin 2048) (q : Fin 1024) (hr) (hs) (k : Fin 256) :
    dot_S2048x256_S1024x256_S2048x1024_1_1_0_0_n_n.rhsIdx (ix2 p q)
      ((contrEquiv1 dot_S2048x256_S1024x256_S2048x1024_1_1_0_0_n_n 256 hr hs).symm k) = ix2 q k := by
  funext a
  apply Fin.ext
  match a with
  | ⟨0, _⟩ =>
    exact Cert.Lib.DotFreeAxis.rhsIdx_val_of_free dot_S2048x256_S1024x256_S2048x1024_1_1_0_0_n_n (a := 0) (a' := 0) rfl rfl rfl rfl
      (by decide) (ix2 p q) _
  | ⟨1, _⟩ =>
    exact (DotDims.rhsIdx_val_of_single dot_S2048x256_S1024x256_S2048x1024_1_1_0_0_n_n (cr := 1) rfl (ix2 p q) _).trans
      (contrEquiv1_symm_val dot_S2048x256_S1024x256_S2048x1024_1_1_0_0_n_n 256 hr hs k)

/-- The update: accumulator plus the block's 256-term dot product. -/
theorem update_apply (x : Vec Ideal S2048x256 .f32) (wt : Vec Ideal S1024x256 .bf16) (acc : Vec Ideal S2048x1024 .f32)
    (p : Fin 2048) (q : Fin 1024) :
    k0_pay2 (F := Ideal) x wt acc (ix2 p q) = acc (ix2 p q) + ∑ k : Fin 256, x (ix2 p k) * wt (ix2 q k) := by
  unfold k0_pay2
  rw [shapeCast_self, shapeCast_self, shapeCast_self]
  show acc (ix2 p q) + matmul (F := Ideal) dot_S2048x256_S1024x256_S2048x1024_1_1_0_0_n_n none
      (truncf .bf16 (x : FVec Ideal S2048x256 .f32) Facts₀.bitsLt_bf16_f32) (wt : FVec Ideal S1024x256 .bf16)
      (constant S2048x1024 .f32 0x00000000#32) (ix2 p q) = _
  rw [Cert.Lib.OneAxisDot.matmul_zero_apply_at dot_S2048x256_S1024x256_S2048x1024_1_1_0_0_n_n 256 rfl rfl none _ _ (ix2 p q)
    (fun k => ix2 p k) (fun k => ix2 q k) (lhs_index p q rfl rfl) (rhs_index p q rfl rfl)]
  rfl

/-- The bias row added to every row. -/
theorem addBias_apply (acc : Vec Ideal S2048x1024 .f32) (bias : Vec Ideal S1x1024 .f32) (p : Fin 2048) (q : Fin 1024) :
    k0_pay3 (F := Ideal) acc bias (ix2 p q) = acc (ix2 p q) + bias (ix2 (0 : Fin 1) q) := by
  unfold k0_pay3
  rw [shapeCast_self]
  show acc (ix2 p q) + broadcastTo S2048x1024 (bias : S1x1024.Idx → EReal) Facts₀.broadcasts_S1x1024_S2048x1024 (ix2 p q)
    = acc (ix2 p q) + bias (ix2 (0 : Fin 1) q)
  rw [broadcastTo_apply (bias : S1x1024.Idx → EReal) Facts₀.broadcasts_S1x1024_S2048x1024 (ix2 p q) (ix2 (0 : Fin 1) q) (fun a => by
    match a with
    | ⟨0, _⟩ => rfl
    | ⟨1, _⟩ => rfl)]

end Cert.KernelIdeal.Payload
end
-- ==== Proof.LibBlockSum.lean ====
/-
  Dot products of matrix rows, cut into consecutive stretches of columns.

  For matrices X (A × K) and W (B × K) of extended reals the product X · Wᵀ has, at (a, b), the dot product of
  row a of X with row b of W. Summing the first n columns only gives a partial dot product; adding the next T
  columns to it gives the partial dot product over n + T columns. That is all a blocked matrix product does
  along its contraction axis, and it needs nothing but the associativity and commutativity of addition, which
  hold on the extended reals with the infinities included: no entry has to be finite.

  To speak of "row r, column k" for arbitrary naturals, a matrix is continued by zero outside its extents.
-/
import Idealize.ShloMosaic.Lib.ValueIdx
import Idealize.ShloMosaic.PureOps.Ideal

noncomputable section

open scoped BigOperators

namespace Cert.BlockSum

open Idealize.ShloMosaic Idealize.ShloMosaic.ValueIdx

/-- A matrix continued by zero outside its extents: it can be read at any pair of naturals. -/
def ext2 {A B : Nat} (X : (⟨2, ![A, B]⟩ : Shape).Idx → EReal) (r k : ℕ) : EReal :=
  if h : r < A ∧ k < B then X (ix2 ⟨r, h.1⟩ ⟨k, h.2⟩) else 0

/-- Inside the extents the continuation is the matrix. -/
theorem ext2_val {A B : Nat} (X : (⟨2, ![A, B]⟩ : Shape).Idx → EReal) (a : Fin A) (b : Fin B) :
    ext2 X a.val b.val = X (ix2 a b) := by
  unfold ext2
  rw [dif_pos ⟨a.isLt, b.isLt⟩]

/-- An entry, read by the values of its index's two coordinates. -/
theorem apply_eq_ext2 {A B : Nat} (X : (⟨2, ![A, B]⟩ : Shape).Idx → EReal) (i : (⟨2, ![A, B]⟩ : Shape).Idx)
    (r k : ℕ) (hr : (i 0).val = r) (hk : (i 1).val = k) : X i = ext2 X r k := by
  subst hr hk
  unfold ext2
  rw [dif_pos (⟨(i 0).isLt, (i 1).isLt⟩ : (i 0).val < A ∧ (i 1).val < B)]
  refine congrArg X (funext fun d => ?_)
  match d with
  | ⟨0, _⟩ => rfl
  | ⟨1, _⟩ => rfl

/-- An entry at an index known by its two coordinates. -/
theorem apply_of_eq_ix2 {A B : Nat} (X : (⟨2, ![A, B]⟩ : Shape).Idx → EReal) (i : (⟨2, ![A, B]⟩ : Shape).Idx)
    (r k : ℕ) (hr : r < A) (hk : k < B) (hi : i = ix2 ⟨r, hr⟩ ⟨k, hk⟩) : X i = ext2 X r k := by
  subst hi
  exact (ext2_val X ⟨r, hr⟩ ⟨k, hk⟩).symm

/-- Row r of X against row o of W over the first n columns. -/
def rowDot {A B K : Nat} (X : (⟨2, ![A, K]⟩ : Shape).Idx → EReal) (W : (⟨2, ![B, K]⟩ : Shape).Idx → EReal)
    (r o n : ℕ) : EReal :=
  ∑ k ∈ Finset.range n, ext2 X r k * ext2 W o k

/-- Over no column the partial dot product is zero. -/
theorem rowDot_zero {A B K : Nat} (X : (⟨2, ![A, K]⟩ : Shape).Idx → EReal) (W : (⟨2, ![B, K]⟩ : Shape).Idx → EReal)
    (r o : ℕ) : rowDot X W r o 0 = 0 := by
  unfold rowDot
  rw [Finset.range_zero, Finset.sum_empty]

/-- The next T columns added to the partial dot product over n columns give the one over n + T columns. -/
theorem rowDot_add {A B K : Nat} (X : (⟨2, ![A, K]⟩ : Shape).Idx → EReal) (W : (⟨2, ![B, K]⟩ : Shape).Idx → EReal)
    (r o n T : ℕ) :
    rowDot X W r o n + ∑ k : Fin T, ext2 X r (n + k.val) * ext2 W o (n + k.val) = rowDot X W r o (n + T) := by
  unfold rowDot
  rw [Finset.sum_range_add, Finset.sum_range (fun x => ext2 X r (n + x) * ext2 W o (n + x))]

/-- The product X · Wᵀ: at (a, b) the dot product of row a of X with row b of W. -/
def mulT {A B K : Nat} (X : (⟨2, ![A, K]⟩ : Shape).Idx → EReal) (W : (⟨2, ![B, K]⟩ : Shape).Idx → EReal) :
    (⟨2, ![A, B]⟩ : Shape).Idx → EReal :=
  fun j => ∑ k : Fin K, X (ix2 (j 0) k) * W (ix2 (j 1) k)

/-- Its entry is the partial dot product over all K columns. -/
theorem mulT_eq_rowDot {A B K : Nat} (X : (⟨2, ![A, K]⟩ : Shape).Idx → EReal) (W : (⟨2, ![B, K]⟩ : Shape).Idx → EReal)
    (j : (⟨2, ![A, B]⟩ : Shape).Idx) (r o : ℕ) (hr : (j 0).val = r) (ho : (j 1).val = o) :
    mulT X W j = rowDot X W r o K := by
  subst hr ho
  unfold mulT rowDot
  rw [Finset.sum_range (fun k => ext2 X (j 0).val k * ext2 W (j 1).val k)]
  exact Finset.sum_congr rfl fun k _ =>
    congrArg₂ (· * ·) (ext2_val X (j 0) k).symm (ext2_val W (j 1) k).symm

end Cert.BlockSum

end
-- ==== Proof.KernelAccum.lean ====
/-
  The accumulator across the grid.

  The grid has 4 x 4 x 16 points, visited in row-major order: position n has row-block n / 64, column-block
  n / 16 % 4 and contraction step n % 16.  At that point the body sees rows 2048·(n/64) … of the activations X and
  rows 1024·(n/16%4) … of the weights W, both restricted to columns 256·(n%16) …, and the bias entries
  1024·(n/16%4) ….  Starting from zeros at step 0 and adding one block's 256-column dot products per step, the
  accumulator after position n holds, at (p, q), the dot product of row 2048·(n/64) + p of X with row
  1024·(n/16%4) + q of W over the first 256·(n%16) + 256 columns.  This is an induction on n; the partial dot
  products only use that a sum over n + T columns is the sum over n columns plus the next T.
-/
import proofs.«100241_j53824530153497_2_alg».proof.Proof.KernelPieces
import proofs.«100241_j53824530153497_2_alg».proof.Proof.KernelPayload
import proofs.«100241_j53824530153497_2_alg».proof.Proof.LibBlockSum

noncomputable section

open scoped BigOperators
open Idealize.ShloMosaic Idealize.ShloMosaic.TcCoe Idealize.ShloMosaic.ValueIdx Idealize.SL.Sem
open Idealize.ShloMosaic.Pipeline (Dat)

namespace Cert.KernelIdeal.Accum
open Cert.KernelIdeal Cert.KernelIdeal.Gen Cert.BlockSum

variable (m : (ℓ : Loc nD τ sig) → Buf (Elt Ideal) ℓ)

/-- Where each window's block sits at grid position t, on each axis. -/
theorem idx_facts : ∀ t : Fin cfg0.N,
    win0_0.index t (0 : Fin 2) = t.val / 64 ∧ win0_0.index t (1 : Fin 2) = t.val % 16
    ∧ win0_1.index t (0 : Fin 2) = t.val / 16 % 4 ∧ win0_1.index t (1 : Fin 2) = t.val % 16
    ∧ win0_2.index t (0 : Fin 2) = 0 ∧ win0_2.index t (1 : Fin 2) = t.val / 16 % 4
    ∧ win0_3.index t (0 : Fin 2) = t.val / 64 ∧ win0_3.index t (1 : Fin 2) = t.val / 16 % 4 :=
  (by decide +kernel : ∀ t : Fin grid0.N, _)

/-- The activations, the preprocessed weights and the bias row as the kernel finds them. -/
def X (c : Dev nD) : S8192x4096.Idx → EReal := V m c main_call0_v29
def W (c : Dev nD) : S4096x4096.Idx → EReal := V m c main_call0_v28
def B (c : Dev nD) : S1x4096.Idx → EReal := V m c main_call0_v30

/-- The activation block at position t. -/
theorem xblk (c : Dev nD) (t : Fin cfg0.N) (p : Fin 2048) (k : Fin 256) :
    (iblk m c 0 t : Vec Ideal S2048x256 .f32) (ix2 p k)
      = ext2 (X m c) (2048 * (t.val / 64) + p.val) (256 * (t.val % 16) + k.val) := by
  unfold iblk
  rw [View.read_apply]
  refine apply_eq_ext2 (X m c) _ _ _ ?_ ?_
  · show win0_0.index t (0 : Fin 2) * 2048 + 1 * p.val = _
    rw [(idx_facts t).1]; omega
  · show win0_0.index t (1 : Fin 2) * 256 + 1 * k.val = _
    rw [(idx_facts t).2.1]; omega

/-- The weight block at position t. -/
theorem wblk (c : Dev nD) (t : Fin cfg0.N) (q : Fin 1024) (k : Fin 256) :
    (iblk m c 1 t : Vec Ideal S1024x256 .bf16) (ix2 q k)
      = ext2 (W m c) (1024 * (t.val / 16 % 4) + q.val) (256 * (t.val % 16) + k.val) := by
  unfold iblk
  rw [View.read_apply]
  refine apply_eq_ext2 (W m c) _ _ _ ?_ ?_
  · show win0_1.index t (0 : Fin 2) * 1024 + 1 * q.val = _
    rw [(idx_facts t).2.2.1]; omega
  · show win0_1.index t (1 : Fin 2) * 256 + 1 * k.val = _
    rw [(idx_facts t).2.2.2.1]; omega

/-- The bias block at position t. -/
theorem bblk (c : Dev nD) (t : Fin cfg0.N) (q : Fin 1024) (i : S1x4096.Idx) (h0 : (i 0).val = 0)
    (h1 : (i 1).val = 1024 * (t.val / 16 % 4) + q.val) :
    (iblk m c 2 t : Vec Ideal S1x1024 .f32) (ix2 (0 : Fin 1) q) = B m c i := by
  unfold iblk
  rw [View.read_apply]
  refine congrArg (B m c) (funext fun a => Fin.ext ?_)
  match a with
  | ⟨0, _⟩ =>
    show win0_2.index t (0 : Fin 2) * 1 + 1 * 0 = (i 0).val
    rw [(idx_facts t).2.2.2.2.1, h0]
  | ⟨1, _⟩ =>
    show win0_2.index t (1 : Fin 2) * 1024 + 1 * q.val = (i 1).val
    rw [(idx_facts t).2.2.2.2.2.1, h1]; omega

/-- One step, for any arrays: if the blocks are the stated stretches of X and W and the accumulator holds the partial
    dot products over the first n0 columns, the update holds them over n0 + 256 columns. -/
theorem update_rowDot (X : S8192x4096.Idx → EReal) (W : S4096x4096.Idx → EReal) (x0 : Vec Ideal S2048x256 .f32)
    (x1 : Vec Ideal S1024x256 .bf16) (acc : Vec Ideal S2048x1024 .f32) (r0 o0 n0 : ℕ)
    (hx : ∀ (p : Fin 2048) (k : Fin 256), x0 (ix2 p k) = ext2 X (r0 + p.val) (n0 + k.val))
    (hw : ∀ (q : Fin 1024) (k : Fin 256), x1 (ix2 q k) = ext2 W (o0 + q.val) (n0 + k.val))
    (hacc : ∀ (p : Fin 2048) (q : Fin 1024), acc (ix2 p q) = rowDot X W (r0 + p.val) (o0 + q.val) n0)
    (p : Fin 2048) (q : Fin 1024) :
    k0_pay2 (F := Ideal) x0 x1 acc (ix2 p q) = rowDot X W (r0 + p.val) (o0 + q.val) (n0 + 256) := by
  rw [Payload.update_apply, hacc p q, ← rowDot_add X W (r0 + p.val) (o0 + q.val) n0 256]
  congr 1
  exact Finset.sum_congr rfl fun k _ => by rw [hx p k, hw q k]

/-- What the accumulator holds after a first contraction step, -/
theorem acc_first (c : Dev nD) (t : Fin cfg0.N) (h0 : t.val % 16 = 0) (h1 : ¬t.val % 16 = 15) :
    (outsAt0 m c t.val t.isLt).2 = k0_pay2 (iblk m c 0 t) (iblk m c 1 t) (k0_pay1 (F := Ideal)) := by
  rw [outsAt0_A m c t h0 h1]
  dsimp only
  exact Pieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- a middle one, -/
theorem acc_mid (c : Dev nD) (t : Fin cfg0.N) (h0 : ¬t.val % 16 = 0) (h1 : ¬t.val % 16 = 15) :
    (outsAt0 m c t.val t.isLt).2 = k0_pay2 (iblk m c 0 t) (iblk m c 1 t)
      (outsAt0 m c (t.val - 1) (Nat.lt_of_le_of_lt (Nat.sub_le _ _) t.isLt)).2 := by
  rw [outsAt0_B m c t h0 h1]
  dsimp only
  exact Pieces.scratch_mid (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
    (iblk m c 0 t) (iblk m c 1 t) (iblk m c 2 t) (outsAt0 m c (t.val - 1) (Nat.lt_of_le_of_lt (Nat.sub_le _ _) t.isLt)).2

/-- and the last one; -/
theorem acc_last (c : Dev nD) (t : Fin cfg0.N) (h0 : ¬t.val % 16 = 0) (h1 : t.val % 16 = 15) :
    (outsAt0 m c t.val t.isLt).2 = k0_pay2 (iblk m c 0 t) (iblk m c 1 t)
      (outsAt0 m c (t.val - 1) (Nat.lt_of_le_of_lt (Nat.sub_le _ _) t.isLt)).2 := by
  rw [outsAt0_C m c t h0 h1]
  dsimp only
  exact Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

/-- the last one also leaves the output block: that accumulator plus the bias row. -/
theorem out_last (c : Dev nD) (t : Fin cfg0.N) (h0 : ¬t.val % 16 = 0) (h1 : t.val % 16 = 15) :
    (outsAt0 m c t.val t.isLt).1 = k0_pay3 (k0_pay2 (iblk m c 0 t) (iblk m c 1 t)
      (outsAt0 m c (t.val - 1) (Nat.lt_of_le_of_lt (Nat.sub_le _ _) t.isLt)).2) (iblk m c 2 t) := by
  rw [outsAt0_C m c t h0 h1]
  dsimp only
  exact Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

/-- A step at position t from an accumulator holding the partial dot products over the columns before the block's. -/
theorem next_point (c : Dev nD) (t : Fin cfg0.N) (acc : Vec Ideal S2048x1024 .f32)
    (hacc : ∀ (p : Fin 2048) (q : Fin 1024), acc (ix2 p q)
      = rowDot (X m c) (W m c) (2048 * (t.val / 64) + p.val) (1024 * (t.val / 16 % 4) + q.val) (256 * (t.val % 16)))
    (p : Fin 2048) (q : Fin 1024) :
    k0_pay2 (F := Ideal) (iblk m c 0 t) (iblk m c 1 t) acc (ix2 p q)
      = rowDot (X m c) (W m c) (2048 * (t.val / 64) + p.val) (1024 * (t.val / 16 % 4) + q.val) (256 * (t.val % 16) + 256) :=
  update_rowDot (X m c) (W m c) (iblk m c 0 t) (iblk m c 1 t) acc (2048 * (t.val / 64)) (1024 * (t.val / 16 % 4))
    (256 * (t.val % 16)) (xblk m c t) (wblk m c t) hacc p q

/-- THE INVARIANT: after position n the accumulator holds the partial dot products over 256·(n%16) + 256 columns. -/
theorem acc_eq (c : Dev nD) : ∀ (n : ℕ) (hn : n < cfg0.N) (p : Fin 2048) (q : Fin 1024),
    (outsAt0 m c n hn).2 (ix2 p q)
      = rowDot (X m c) (W m c) (2048 * (n / 64) + p.val) (1024 * (n / 16 % 4) + q.val) (256 * (n % 16) + 256)
  | 0, hn, p, q => by
    rw [acc_first m c ⟨0, hn⟩ rfl (by show ¬(0 : ℕ) % 16 = 15; decide)]
    exact next_point m c ⟨0, hn⟩ (k0_pay1 (F := Ideal)) (fun p q => (Payload.zero_apply (ix2 p q)).trans (rowDot_zero (X m c) (W m c) _ _).symm) p q
  | n + 1, hn, p, q => by
    have hN : n + 1 < 256 := lt_of_lt_of_eq hn N_0
    by_cases h0 : (n + 1) % 16 = 0
    · have h1 : ¬(n + 1) % 16 = 15 := by omega
      rw [acc_first m c ⟨n + 1, hn⟩ h0 h1]
      refine next_point m c ⟨n + 1, hn⟩ (k0_pay1 (F := Ideal)) (fun p q => ?_) p q
      rw [Payload.zero_apply]
      show (0 : EReal) = rowDot _ _ _ _ (256 * ((n + 1) % 16))
      rw [h0, Nat.mul_zero, rowDot_zero]
    · have IH : ∀ (p : Fin 2048) (q : Fin 1024), (outsAt0 m c n (Nat.lt_of_succ_lt hn)).2 (ix2 p q)
          = rowDot (X m c) (W m c) (2048 * ((n + 1) / 64) + p.val) (1024 * ((n + 1) / 16 % 4) + q.val) (256 * ((n + 1) % 16)) := by
        intro p q
        have e1 : n / 64 = (n + 1) / 64 := by omega
        have e2 : n / 16 % 4 = (n + 1) / 16 % 4 := by omega
        have e3 : 256 * (n % 16) + 256 = 256 * ((n + 1) % 16) := by omega
        rw [acc_eq c n (Nat.lt_of_succ_lt hn) p q, e1, e2, e3]
      by_cases h1 : (n + 1) % 16 = 15
      · rw [acc_last m c ⟨n + 1, hn⟩ h0 h1]
        exact next_point m c ⟨n + 1, hn⟩ (outsAt0 m c n (Nat.lt_of_succ_lt hn)).2 IH p q
      · rw [acc_mid m c ⟨n + 1, hn⟩ h0 h1]
        exact next_point m c ⟨n + 1, hn⟩ (outsAt0 m c n (Nat.lt_of_succ_lt hn)).2 IH p q

end Cert.KernelIdeal.Accum
end
-- ==== Proof.KernelSpec.lean ====
/-
  The kernel's output array as one function of the three arrays it stages.

  With X the [8192, 4096] activations (the [4, 2048, 4096] input with its two leading axes merged), W the
  [4096, 4096] preprocessed weights and B the [1, 4096] bias row, the kernel's [8192, 4096] output has at (r, o)
  the dot product of row r of X with row o of W over all 4096 columns, plus B(0, o).
-/
import proofs.«100241_j53824530153497_2_alg».proof.Proof.Gen.KernelIdeal
import proofs.«100241_j53824530153497_2_alg».proof.Proof.LibBlockSum

noncomputable section

open Idealize.ShloMosaic Idealize.ShloMosaic.ValueIdx

namespace Cert.KernelIdeal.Array
open Cert.KernelIdeal

/-- out(r, o) = (X · Wᵀ)(r, o) + B(0, o). -/
def G (X : S8192x4096.Idx → EReal) (W : S4096x4096.Idx → EReal) (B : S1x4096.Idx → EReal) : S8192x4096.Idx → EReal :=
  fun j => Cert.BlockSum.mulT X W j + B (ix2 (0 : Fin 1) (j 1))

end Cert.KernelIdeal.Array
end
-- ==== Proof.KernelArray.lean ====
/-
  From the blocks to the kernel's output array.

  The output block of row-block a and column-block b is written back once, at the last contraction step of the 16
  points that share (a, b).  By then the accumulator holds full dot products (4096 columns), so the block written is
  the block of G = X · Wᵀ + bias row.  The 16 written blocks tile the [8192, 4096] array: the block covering entry
  (r, o) is the one of row-block r / 2048 and column-block o / 1024.  Hence the array ends holding G.
-/
import proofs.«100241_j53824530153497_2_alg».proof.Proof.KernelAccum
import proofs.«100241_j53824530153497_2_alg».proof.Proof.KernelSpec

noncomputable section

open scoped BigOperators
open Idealize.ShloMosaic Idealize.ShloMosaic.TcCoe Idealize.ShloMosaic.ValueIdx Idealize.SL.Sem
open Idealize.ShloMosaic.Pipeline (Dat)

namespace Cert.KernelIdeal.Array
open Cert.KernelIdeal Cert.KernelIdeal.Gen Cert.BlockSum Cert.KernelIdeal.Accum

variable (m : (ℓ : Loc nD τ sig) → Buf (Elt Ideal) ℓ)

/-- At a last contraction step the output block's entry (p, q) is G at the array index the block puts it at. -/
theorem out_block (c : Dev nD) (t : Fin cfg0.N) (h0 : ¬t.val % 16 = 0) (h15 : t.val % 16 = 15) (p : Fin 2048) (q : Fin 1024)
    (i : S8192x4096.Idx) (hi0 : (i 0).val = 2048 * (t.val / 64) + p.val) (hi1 : (i 1).val = 1024 * (t.val / 16 % 4) + q.val) :
    (outsAt0 m c t.val t.isLt).1 (ix2 p q) = G (X m c) (W m c) (B m c) i := by
  have hN : t.val < 256 := lt_of_lt_of_eq t.isLt N_0
  have hacc : ∀ (p : Fin 2048) (q : Fin 1024), (outsAt0 m c (t.val - 1) (Nat.lt_of_le_of_lt (Nat.sub_le _ _) t.isLt)).2 (ix2 p q)
      = rowDot (X m c) (W m c) (2048 * (t.val / 64) + p.val) (1024 * (t.val / 16 % 4) + q.val) (256 * (t.val % 16)) := by
    intro p q
    have e1 : (t.val - 1) / 64 = t.val / 64 := by omega
    have e2 : (t.val - 1) / 16 % 4 = t.val / 16 % 4 := by omega
    have e3 : 256 * ((t.val - 1) % 16) + 256 = 256 * (t.val % 16) := by omega
    rw [acc_eq m c (t.val - 1) (Nat.lt_of_le_of_lt (Nat.sub_le _ _) t.isLt) p q, e1, e2, e3]
  rw [out_last m c t h0 h15]
  refine (Payload.addBias_apply (k0_pay2 (F := Ideal) (iblk m c 0 t) (iblk m c 1 t) (outsAt0 m c (t.val - 1) (Nat.lt_of_le_of_lt (Nat.sub_le _ _) t.isLt)).2)
    (iblk m c 2 t) p q).trans ?_
  unfold G
  rw [mulT_eq_rowDot (X m c) (W m c) i _ _ hi0 hi1, bblk m c t q (ix2 (0 : Fin 1) (i 1)) rfl hi1,
    next_point m c t (outsAt0 m c (t.val - 1) (Nat.lt_of_le_of_lt (Nat.sub_le _ _) t.isLt)).2 hacc p q, h15]

/-- WHAT A WRITING POINT WRITES BACK is its block of G. -/
theorem flushed_eq (c : Dev nD) (t : Fin cfg0.N) (hf : (cfg0.win 3).flush t = true) :
    (dats m 0 c).flushed 3 t = ((cfg0.win 3).blk t).view.read (Elt Ideal) (G (X m c) (W m c) (B m c)) := by
  have hN : t.val < 256 := lt_of_lt_of_eq t.isLt N_0
  have h15 : t.val % 16 = 15 := (flush0_3 t).mp hf
  have h0 : ¬t.val % 16 = 0 := by omega
  show (cfg0.win 3).cut (grid0.coords t) ((dats m 0 c).after 3 t) = _
  rw [after0_3]
  funext y
  show (outsAt0 m c t.val t.isLt).1 y = G (X m c) (W m c) (B m c) (((cfg0.win 3).blk t).view.emb y)
  refine (congrArg (outsAt0 m c t.val t.isLt).1 (eq_ix2 y)).trans ?_
  refine out_block m c t h0 h15 (y 0) (y 1) _ ?_ ?_
  · show win0_3.index t (0 : Fin 2) * 2048 + 1 * (y 0).val = _
    rw [(idx_facts t).2.2.2.2.2.2.1]; omega
  · show win0_3.index t (1 : Fin 2) * 1024 + 1 * (y 1).val = _
    rw [(idx_facts t).2.2.2.2.2.2.2]; omega

/-- An array index is in point t's block iff each coordinate is in the block's range on its axis. -/
theorem mem_blk (t : Fin cfg0.N) (i : S8192x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_call0_v31).slice (win0_3.rect t)).set ↔ _
  rw [View.set_slice_whole, Rect.mem_set_unit]
  exact Iff.rfl

/-- Every entry of the array is in the block some writing point writes. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hlt : ((i 0).val / 2048 * 4 + (i 1).val / 1024) * 16 + 15 < cfg0.N := by
    rw [show cfg0.N = 256 from N_0]; omega
  obtain ⟨_, _, _, _, _, _, e0, e1⟩ := idx_facts ⟨_, hlt⟩
  dsimp only at e0 e1
  refine ⟨⟨_, hlt⟩, (flush0_3 _).mpr (by show (((i 0).val / 2048 * 4 + (i 1).val / 1024) * 16 + 15) % 16 = 15; omega), ?_⟩
  rw [mem_blk]
  intro a
  match a with
  | ⟨0, _⟩ =>
    show win0_3.index ⟨_, hlt⟩ (0 : Fin 2) * 2048 ≤ (i 0).val ∧ (i 0).val < win0_3.index ⟨_, hlt⟩ (0 : Fin 2) * 2048 + 2048
    rw [e0]; omega
  | ⟨1, _⟩ =>
    show win0_3.index ⟨_, hlt⟩ (1 : Fin 2) * 1024 ≤ (i 1).val ∧ (i 1).val < win0_3.index ⟨_, hlt⟩ (1 : Fin 2) * 1024 + 1024
    rw [e1]; omega

/-- THE ARRAY after the region: G. -/
theorem final (c : Dev nD) : (dats m 0 c).arrAt 3 cfg0.N = G (X m c) (W m c) (B m c) :=
  (dats m 0 c).arrAt_eq_of_cover 3 (G (X m c) (W m c) (B m c)) (fun t hf => flushed_eq m c t hf) (fun i => cover i)

end Cert.KernelIdeal.Array
end
-- ==== Proof.Weights.lean ====
/-
  The weight preprocessing of the two programs, as functions of the weight matrix.

  Both programs first turn the 4096 x 4096 weight matrix w into a matrix of the same shape: with m the mean of
  all entries and s their sample standard deviation (divisor n - 1, n = 2^24), an entry is an OUTLIER when it lies
  below m - 1.96 s or above m + 1.96 s; outliers are kept, every other entry is multiplied by one scalar, the mean
  absolute value of the non-outliers (their absolute values summed, over their number).  The two programs spell
  this differently (how the divisor n - 1 arises, how the non-outliers are counted, how the outliers are left
  out of the sum of absolute values); each spelling is recorded here stage by stage, for any float values.
-/
import proofs.«100241_j53824530153497_2_alg».proof.Proof.Gen.KernelIdeal
import proofs.«100241_j53824530153497_2_alg».proof.Proof.Gen.ReferenceIdeal

noncomputable section

/-! ## The kernel program's spelling -/

namespace Cert.KernelIdeal.Weights

open Idealize.ShloMosaic Cert.KernelIdeal Cert.KernelIdeal.Facts₀

variable {F : FTy → Type} [FloatOps F]

/-- The mean: the sum of all entries over 2^24. -/
def mean (w : FVec F S4096x4096 .f32) : FVec F S_ .f32 :=
  Host.divf (Host.reduceAdd w (constant S_ .f32 0x00000000#32) reducesTo_S4096x4096_S_d0_1 h_S_) (constant S_ .f32 0x4B800000#32)

/-- Every entry minus the mean. -/
def dev (w : FVec F S4096x4096 .f32) : FVec F S4096x4096 .f32 :=
  subf w (broadcastInDim S4096x4096 ![] bcast_S_S4096x4096 (mean w))

/-- The sample standard deviation: the square root of the summed squared deviations over the literal 2^24 - 1. -/
def std (w : FVec F S4096x4096 .f32) : FVec F S_ .f32 :=
  Host.sqrt (Host.divf (Host.reduceAdd (mulf (dev w) (dev w)) (constant S_ .f32 0x00000000#32) reducesTo_S4096x4096_S_d0_1 h_S_)
    (constant S_ .f32 0x4B7FFFFF#32))

/-- The outlier mask for a given mean and deviation: below mean - 1.96 std or above mean + 1.96 std. -/
def outlOf (w : FVec F S4096x4096 .f32) (mu sd : FVec F S_ .f32) : IVec S4096x4096 1 :=
  ori (cmpf .olt w (broadcastInDim S4096x4096 ![] bcast_S_S4096x4096 (subf mu (mulf (constant S_ .f32 0x3FFAE148#32) sd))))
    (cmpf .ogt w (broadcastInDim S4096x4096 ![] bcast_S_S4096x4096 (addf mu (mulf (constant S_ .f32 0x3FFAE148#32) sd))))

def outl (w : FVec F S4096x4096 .f32) : IVec S4096x4096 1 := outlOf w (mean w) (std w)

/-- The number of non-outliers: their mask bits widened to 32-bit words, summed as integers, read as a float. -/
def count (o : IVec S4096x4096 1) : FVec F S_ .f32 :=
  sitofp .f32 (Host.reduce IntOp.addi (extui 32 (noti o) natLt_1_32) (constantI S_ 32 0#32) reducesTo_S4096x4096_S_d0_1 h_S_)

/-- The absolute values of the non-outliers, summed: an outlier contributes the constant 0. -/
def asum (w : FVec F S4096x4096 .f32) (o : IVec S4096x4096 1) : FVec F S_ .f32 :=
  Host.reduceAdd (select o (broadcastInDim S4096x4096 ![] bcast_S_S4096x4096 (constant S_ .f32 0x00000000#32)) (Host.absf w))
    (constant S_ .f32 0x00000000#32) reducesTo_S4096x4096_S_d0_1 h_S_

/-- Outliers kept, every other entry times the scale. -/
def rescale (w : FVec F S4096x4096 .f32) (o : IVec S4096x4096 1) (sc : FVec F S_ .f32) : FVec F S4096x4096 .f32 :=
  select o w (mulf w (broadcastInDim S4096x4096 ![] bcast_S_S4096x4096 sc))

/-- The preprocessed weight. -/
def wbin (w : FVec F S4096x4096 .f32) : FVec F S4096x4096 .f32 :=
  rescale w (outl w) (Host.divf (asum w (outl w)) (count (outl w)))

end Cert.KernelIdeal.Weights

/-! ## The reference program's spelling -/

namespace Cert.ReferenceIdeal.Weights

open Idealize.ShloMosaic Cert.ReferenceIdeal Cert.ReferenceIdeal.Facts₀

variable {F : FTy → Type} [FloatOps F]

/-- The mean: the sum of all entries over 2^24. -/
def mean (w : FVec F S4096x4096 .f32) : FVec F S_ .f32 :=
  Host.divf (Host.reduceAdd w (constant S_ .f32 0x00000000#32) reducesTo_S4096x4096_S_d0_1 h_S_) (constant S_ .f32 0x4B800000#32)

/-- The mean again, as the variance computes it: on a 1 x 1 array. -/
def mean11 (w : FVec F S4096x4096 .f32) : FVec F S1x1 .f32 :=
  Host.divf (broadcastInDim S1x1 ![] bcast_S_S1x1 (Host.reduceAdd w (constant S_ .f32 0x00000000#32) reducesTo_S4096x4096_S_d0_1 h_S_))
    (broadcastInDim S1x1 ![] bcast_S_S1x1 (constant S_ .f32 0x4B800000#32))

/-- Every entry minus that mean. -/
def dev (w : FVec F S4096x4096 .f32) : FVec F S4096x4096 .f32 :=
  subf w (broadcastInDim S4096x4096 ![0, 1] bcast_S1x1_S4096x4096_0_1 (mean11 w))

/-- The divisor n - 1: 2^24 minus the integer 1 read as a float. -/
def nm1 : FVec F S_ .f32 := subf (constant S_ .f32 0x4B800000#32) (sitofp .f32 (constantI S_ 32 1#32))

/-- The variance, guarded: the summed squares over n - 1 where n - 1 > 0, else the not-a-number pattern. -/
def var (w : FVec F S4096x4096 .f32) : FVec F S_ .f32 :=
  select (cmpf .ogt (nm1 (F := F)) (constant S_ .f32 0x00000000#32))
    (Host.divf (Host.reduceAdd (mulf (dev w) (dev w)) (constant S_ .f32 0x00000000#32) reducesTo_S4096x4096_S_d0_1 h_S_) nm1)
    (id (constant S_ .f32 0x7FC00000#32))

def std (w : FVec F S4096x4096 .f32) : FVec F S_ .f32 := Host.sqrt (var w)

/-- The outlier mask for a given mean and deviation. -/
def outlOf (w : FVec F S4096x4096 .f32) (mu sd : FVec F S_ .f32) : IVec S4096x4096 1 :=
  ori (cmpf .olt w (broadcastInDim S4096x4096 ![] bcast_S_S4096x4096 (subf mu (mulf (constant S_ .f32 0x3FFAE148#32) sd))))
    (cmpf .ogt w (broadcastInDim S4096x4096 ![] bcast_S_S4096x4096 (addf mu (mulf (constant S_ .f32 0x3FFAE148#32) sd))))

def outl (w : FVec F S4096x4096 .f32) : IVec S4096x4096 1 := outlOf w (mean w) (std w)

/-- The non-outlier indicator as floats: 1 or 0. -/
def keep (o : IVec S4096x4096 1) : FVec F S4096x4096 .f32 := uitofp .f32 (noti o)

/-- The number of non-outliers: the indicator summed as floats. -/
def count (o : IVec S4096x4096 1) : FVec F S_ .f32 :=
  Host.reduceAdd (keep (F := F) o) (constant S_ .f32 0x00000000#32) reducesTo_S4096x4096_S_d0_1 h_S_

/-- The absolute values times the indicator, summed. -/
def asum (w : FVec F S4096x4096 .f32) (o : IVec S4096x4096 1) : FVec F S_ .f32 :=
  Host.reduceAdd (mulf (Host.absf w) (keep o)) (constant S_ .f32 0x00000000#32) reducesTo_S4096x4096_S_d0_1 h_S_

/-- Outliers kept, every other entry times the scale. -/
def rescale (w : FVec F S4096x4096 .f32) (o : IVec S4096x4096 1) (sc : FVec F S_ .f32) : FVec F S4096x4096 .f32 :=
  select o w (mulf w (broadcastInDim S4096x4096 ![] bcast_S_S4096x4096 sc))

/-- The preprocessed weight. -/
def wbin (w : FVec F S4096x4096 .f32) : FVec F S4096x4096 .f32 :=
  rescale w (outl w) (Host.divf (asum w (outl w)) (count (outl w)))

end Cert.ReferenceIdeal.Weights

end
-- ==== Proof.KernelEntry.lean ====
/-
  What the kernel region finds when it is entered, and what the program returns after it.

  The kernel program's @main is forty-one host operations, the kernel region, and one reshape. Each host operation
  writes a buffer of its own as a function of its operands' contents, so what a buffer holds when the region is entered
  is the composed term of the launch contents of @main's three arguments:

  * the activations' window array is the first argument (4 x 2048 x 4096) reshaped to 8192 x 4096;
  * the bias's window array is the third argument (4096) reshaped to 1 x 4096;
  * the weight's window array is the preprocessed weight (Weights.lean: outliers kept, every other entry times the
    mean absolute value of the non-outliers) of the second argument, narrowed to sixteen bits.

  After the region the one remaining operation reshapes the region's output array (8192 x 4096) to 4 x 2048 x 4096:
  @main's result is that reshape of the output array as the region leaves it.

  All four hold for any float values.
-/
import proofs.«100241_j53824530153497_2_alg».proof.Proof.Gen.KernelIdeal.Frame
import proofs.«100241_j53824530153497_2_alg».proof.Proof.Weights
import Idealize.ShloMosaic.Lib.StableHlo.Run
import Idealize.ShloMosaic.Lib.Pipeline.Value

noncomputable section

namespace Cert.KernelIdeal.Entry

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- Contents carried to a typed reference's buffer and back are unchanged. -/
theorem ofBuf_toBuf {Val : EltTy → Type} {T : BufTy} (x : TRef sig T) (v : T.Contents Val) : x.ofBuf (x.toBuf v) = v := by
  obtain ⟨r, rfl, _, _⟩ := x
  rfl

/-- The activations as the region finds them: the first argument reshaped to 8192 x 4096. -/
theorem X_entry (c : Dev nD) :
    (V m c main_call0_v29 : S8192x4096.Idx → Elt F .f32)
      = shapeCast S8192x4096 (m ((c : Thread nD τ).loc main_arg0)) Facts₀.shapeCasts_S4x2048x4096_S8192x4096 := by
  show StableHlo.after hostOps0 (fun b => m (c, b)) (Proc.devRef .tc main_call0_v29) = _
  after_results_simp
  rfl

/-- The bias as the region finds it: the third argument reshaped to 1 x 4096. -/
theorem B_entry (c : Dev nD) :
    (V m c main_call0_v30 : S1x4096.Idx → Elt F .f32)
      = shapeCast S1x4096 (m ((c : Thread nD τ).loc main_arg2)) Facts₀.shapeCasts_S4096_S1x4096 := by
  show StableHlo.after hostOps0 (fun b => m (c, b)) (Proc.devRef .tc main_call0_v30) = _
  after_results_simp
  rfl

/-- The weight as the region finds it: the preprocessed weight of the second argument, narrowed to sixteen bits. The
    thirty-nine operations that lead to it compose to the stages of the preprocessing, in their order. -/
theorem W_entry (c : Dev nD) :
    (V m c main_call0_v28 : S4096x4096.Idx → Elt F .bf16)
      = truncf .bf16 (Cert.KernelIdeal.Weights.wbin (m ((c : Thread nD τ).loc main_arg1))) Facts₀.bitsLt_bf16_f32 := by
  show StableHlo.after hostOps0 (fun b => m (c, b)) (Proc.devRef .tc main_call0_v28) = _
  after_results_simp
  simp only [ofBuf_toBuf]
  rfl

/-- @main's result: the reshape to 4 x 2048 x 4096 of the output window's array as the region leaves it. -/
theorem tail_entry (c : Dev nD) :
    Pipeline.afterTail₀ cfgs (dats m) 0 (V0 m) [hostOps1] c main_v0
      = shapeCast S4x2048x4096 ((dats m 0 c).arrAt 3 cfg0.N) Facts₀.shapeCasts_S8192x4096_S4x2048x4096 := by
  unfold Pipeline.afterTail₀
  show StableHlo.after hostOps1 _ (Proc.devRef .tc main_v0) = _
  after_results
  have e : Pipeline.withArrays (cfgs 0).spec c (V0 m c) (fun w => (dats m 0 c).arrAt w (cfgs 0).N)
      (Proc.devRef .tc main_call0_v31) = (dats m 0 c).arrAt 3 cfg0.N :=
    Pipeline.withArrays_arr spec0 launch0.win.arr_inj c _ _ 3
  rw [e]
  rfl

end Cert.KernelIdeal.Entry

end
-- ==== Proof.Spec.lean ====
/-
  The layer both programs compute, as one function of its three arrays.

  For activations x of shape [4, 2048, 4096], a weight matrix wb of shape [4096, 4096] (rows are output features)
  and a bias of 4096 entries, the linear layer's output at (b, s, o) is the dot product of the activation row
  x[b, s, ·] with the weight row wb[o, ·], plus bias[o].  Everything is an extended real; the sum runs over the
  4096 input features.
-/
import Idealize.ShloMosaic.PureOps.Ideal
import Idealize.ShloMosaic.Lib.ValueIdx

noncomputable section

open scoped BigOperators

namespace Cert.Spec

open Idealize.ShloMosaic Idealize.ShloMosaic.ValueIdx

/-- out[b, s, o] = sum over k of x[b, s, k] * wb[o, k], plus bias[o]. -/
def linear (x : (⟨3, ![4, 2048, 4096]⟩ : Shape).Idx → EReal) (wb : (⟨2, ![4096, 4096]⟩ : Shape).Idx → EReal)
    (bias : (⟨1, ![4096]⟩ : Shape).Idx → EReal) : (⟨3, ![4, 2048, 4096]⟩ : Shape).Idx → EReal :=
  fun i => (∑ k : Fin 4096, x (ix3 (i 0) (i 1) k) * wb (ix2 (i 2) k)) + bias (ix1 (i 2))

/-- The same, at an index given by its three coordinates. -/
theorem linear_apply (x : (⟨3, ![4, 2048, 4096]⟩ : Shape).Idx → EReal) (wb : (⟨2, ![4096, 4096]⟩ : Shape).Idx → EReal)
    (bias : (⟨1, ![4096]⟩ : Shape).Idx → EReal) (b : Fin 4) (s : Fin 2048) (o : Fin 4096) :
    linear x wb bias (ix3 b s o) = (∑ k : Fin 4096, x (ix3 b s k) * wb (ix2 o k)) + bias (ix1 o) := rfl

end Cert.Spec

end
-- ==== Proof.LibRowMajor.lean ====
/-
  Arrays read through their row-major positions.

  An array over a shape is "represented" by a function f on the natural numbers when its entry at every index is f
  at the index's row-major position.  A reshape keeps the row-major position of every entry, so it keeps the
  representing function; two arrays of one shape with one representing function are equal.  For ranks one to four
  the position of an index built from coordinates is spelt as the usual nested sum of products.
-/
import Idealize.ShloMosaic.PureOps.Ideal.Laws
import Idealize.ShloMosaic.Lib.ValueIdx
import Idealize.ShloMosaic.Lib.Pipeline.Value

noncomputable section

open scoped BigOperators

namespace Cert.Lib.RowMajor

open Idealize.ShloMosaic Idealize.ShloMosaic.ValueIdx

variable {α : Type}

/-- The array `A` at an index is `f` at the index's row-major position. -/
def Rep {S : Shape} (A : S.Idx → α) (f : ℕ → α) : Prop := ∀ i : S.Idx, A i = f (S.rowMajor i).val

/-- The entries of an array listed by row-major position (zero past the last one). -/
def flatOf {S : Shape} (A : S.Idx → EReal) (n : ℕ) : EReal :=
  if h : n < S.numel then A (S.rowMajor.symm ⟨n, h⟩) else 0

theorem rep_flatOf {S : Shape} (A : S.Idx → EReal) : Rep A (flatOf A) := fun i => by
  unfold flatOf
  rw [dif_pos (S.rowMajor i).isLt]
  exact congrArg A ((S.rowMajor.symm_apply_apply i).symm.trans (congrArg S.rowMajor.symm (Fin.ext rfl)))

theorem rep_ext {S : Shape} {A B : S.Idx → α} {f : ℕ → α} (hA : Rep A f) (hB : Rep B f) : A = B :=
  funext fun i => (hA i).trans (hB i).symm

/-- A reshape keeps every entry's row-major position. -/
theorem rep_shapeCast {S T : Shape} {A : S.Idx → α} {f : ℕ → α} (hA : Rep A f) (h : S.ShapeCasts T) :
    Rep (shapeCast T A h) f := fun j => by
  unfold Idealize.ShloMosaic.shapeCast
  rw [hA (Shape.reshapeEquiv h j), Shape.rowMajor_reshapeEquiv h j]

theorem rowMajor_ix1 {a : ℕ} (r : Fin a) : ((⟨1, ![a]⟩ : Shape).rowMajor (ix1 r)).val = r.val := by
  rw [Shape.rowMajor_val_one]; rfl

theorem rowMajor_ix2 {a b : ℕ} (r : Fin a) (c : Fin b) :
    ((⟨2, ![a, b]⟩ : Shape).rowMajor (ix2 r c)).val = r.val * b + c.val := by
  rw [Shape.rowMajor_val_two]; rfl

theorem rowMajor_ix3 {a b c : ℕ} (x : Fin a) (y : Fin b) (z : Fin c) :
    ((⟨3, ![a, b, c]⟩ : Shape).rowMajor (ix3 x y z)).val = (x.val * b + y.val) * c + z.val := by
  rw [Shape.rowMajor_val_three]; rfl

theorem rowMajor_ix4 {a b c d : ℕ} (x : Fin a) (y : Fin b) (z : Fin c) (w : Fin d) :
    ((⟨4, ![a, b, c, d]⟩ : Shape).rowMajor (ix4 x y z w)).val = ((x.val * b + y.val) * c + z.val) * d + w.val := by
  rw [Shape.rowMajor_val_four]; rfl

theorem rep1_iff {a : ℕ} {A : (⟨1, ![a]⟩ : Shape).Idx → α} {f : ℕ → α} :
    Rep A f ↔ ∀ r : Fin a, A (ix1 r) = f r.val :=
  ⟨fun h r => (h (ix1 r)).trans (congrArg f (rowMajor_ix1 r)),
   fun h i => by
    obtain ⟨r, rfl⟩ : ∃ r : Fin a, i = ix1 r := ⟨i 0, eq_ix1 i⟩
    exact (h r).trans (congrArg f (rowMajor_ix1 r).symm)⟩

theorem rep2_iff {a b : ℕ} {A : (⟨2, ![a, b]⟩ : Shape).Idx → α} {f : ℕ → α} :
    Rep A f ↔ ∀ (r : Fin a) (c : Fin b), A (ix2 r c) = f (r.val * b + c.val) :=
  ⟨fun h r c => (h (ix2 r c)).trans (congrArg f (rowMajor_ix2 r c)),
   fun h i => by
    obtain ⟨r, c, rfl⟩ : ∃ (r : Fin a) (c : Fin b), i = ix2 r c := ⟨i 0, i 1, eq_ix2 i⟩
    exact (h r c).trans (congrArg f (rowMajor_ix2 r c).symm)⟩

theorem rep3_iff {a b c : ℕ} {A : (⟨3, ![a, b, c]⟩ : Shape).Idx → α} {f : ℕ → α} :
    Rep A f ↔ ∀ (x : Fin a) (y : Fin b) (z : Fin c), A (ix3 x y z) = f ((x.val * b + y.val) * c + z.val) :=
  ⟨fun h x y z => (h (ix3 x y z)).trans (congrArg f (rowMajor_ix3 x y z)),
   fun h i => by
    obtain ⟨x, y, z, rfl⟩ : ∃ (x : Fin a) (y : Fin b) (z : Fin c), i = ix3 x y z := ⟨i 0, i 1, i 2, eq_ix3 i⟩
    exact (h x y z).trans (congrArg f (rowMajor_ix3 x y z).symm)⟩

theorem rep4_iff {a b c d : ℕ} {A : (⟨4, ![a, b, c, d]⟩ : Shape).Idx → α} {f : ℕ → α} :
    Rep A f ↔ ∀ (x : Fin a) (y : Fin b) (z : Fin c) (w : Fin d),
      A (ix4 x y z w) = f (((x.val * b + y.val) * c + z.val) * d + w.val) :=
  ⟨fun h x y z w => (h (ix4 x y z w)).trans (congrArg f (rowMajor_ix4 x y z w)),
   fun h i => by
    obtain ⟨x, y, z, w, rfl⟩ : ∃ (x : Fin a) (y : Fin b) (z : Fin c) (w : Fin d), i = ix4 x y z w :=
      ⟨i 0, i 1, i 2, i 3, eq_ix4 i⟩
    exact (h x y z w).trans (congrArg f (rowMajor_ix4 x y z w).symm)⟩

end Cert.Lib.RowMajor

end
-- ==== Proof.KernelBridge.lean ====
/-
  The kernel's array, with its rows split again, is the specification's linear layer.

  The kernel program merges the two leading axes of the activations ([4, 2048, 4096] to [8192, 4096]: row
  2048 b + s), views the bias as a [1, 4096] row, computes out(r, o) = sum over k of X(r, k) W(o, k) + B(0, o) with
  W the weights narrowed to a shorter float format, and splits the rows of the result again.  A reshape keeps every
  entry's row-major position, and on extended reals a narrowing of the format is the identity; so at (b, s, o) the
  result is the sum over k of x(b, s, k) wb(o, k), plus bias(o).
-/
import proofs.«100241_j53824530153497_2_alg».proof.Proof.KernelSpec
import proofs.«100241_j53824530153497_2_alg».proof.Proof.Spec
import proofs.«100241_j53824530153497_2_alg».proof.Proof.LibRowMajor
import Idealize.ShloMosaic.Lib.Pipeline.Value
import Idealize.ShloMosaic.Lib.ValueIdx
import Idealize.ShloMosaic.PureOps.Ideal.Laws

noncomputable section

open scoped BigOperators

namespace Cert.KernelIdeal.Bridge

open Idealize.ShloMosaic Idealize.ShloMosaic.ValueIdx Cert.KernelIdeal Cert.KernelIdeal.Facts₀
open Cert.Lib.RowMajor (rowMajor_ix1 rowMajor_ix2 rowMajor_ix3)

/-- Row 2048 b + s of the merged activations. -/
abbrev row (bb : Fin 4) (s : Fin 2048) : Fin 8192 := ⟨bb.val * 2048 + s.val, by omega⟩

/-- The merged activations at (2048 b + s, k) are the activations at (b, s, k). -/
theorem merged_apply (x : FVec Ideal S4x2048x4096 .f32) (bb : Fin 4) (s : Fin 2048) (k : Fin 4096) :
    shapeCast S8192x4096 x Facts₀.shapeCasts_S4x2048x4096_S8192x4096 (ix2 (row bb s) k) = x (ix3 bb s k) :=
  shapeCast_apply x _ (ix2 (row bb s) k) (ix3 bb s k) ((rowMajor_ix3 bb s k).trans (rowMajor_ix2 (row bb s) k).symm)

/-- The bias row at (0, o) is the bias at o. -/
theorem biasRow_apply (b : FVec Ideal S4096 .f32) (o : Fin 4096) :
    shapeCast S1x4096 b Facts₀.shapeCasts_S4096_S1x4096 (ix2 (0 : Fin 1) o) = b (ix1 o) :=
  shapeCast_apply b _ (ix2 (0 : Fin 1) o) (ix1 o)
    ((rowMajor_ix1 o).trans (by rw [rowMajor_ix2]; show o.val = 0 * 4096 + o.val; omega))

/-- The kernel's array over the merged activations, the narrowed weights and the bias row, its rows split again,
    is the linear layer. -/
theorem reshape_G_eq_linear (x : FVec Ideal S4x2048x4096 .f32) (wb : FVec Ideal S4096x4096 .f32) (b : FVec Ideal S4096 .f32) :
    shapeCast S4x2048x4096
        (Cert.KernelIdeal.Array.G (shapeCast S8192x4096 x Facts₀.shapeCasts_S4x2048x4096_S8192x4096)
          (truncf .bf16 wb Facts₀.bitsLt_bf16_f32) (shapeCast S1x4096 b Facts₀.shapeCasts_S4096_S1x4096))
        Facts₀.shapeCasts_S8192x4096_S4x2048x4096
      = Cert.Spec.linear x wb b := by
  funext i
  obtain ⟨bb, s, o, rfl⟩ : ∃ (bb : Fin 4) (s : Fin 2048) (o : Fin 4096), i = ix3 bb s o := ⟨i 0, i 1, i 2, eq_ix3 i⟩
  rw [Cert.Spec.linear_apply,
    shapeCast_apply _ Facts₀.shapeCasts_S8192x4096_S4x2048x4096 (ix3 bb s o) (ix2 (row bb s) o)
      ((rowMajor_ix2 (row bb s) o).trans (rowMajor_ix3 bb s o).symm)]
  show (∑ k : Fin 4096, shapeCast S8192x4096 x Facts₀.shapeCasts_S4x2048x4096_S8192x4096 (ix2 (row bb s) k)
          * truncf .bf16 wb Facts₀.bitsLt_bf16_f32 (ix2 o k))
      + shapeCast S1x4096 b Facts₀.shapeCasts_S4096_S1x4096 (ix2 (0 : Fin 1) o) = _
  rw [biasRow_apply b o]
  refine congrArg (· + b (ix1 o)) (Finset.sum_congr rfl fun k _ => ?_)
  rw [merged_apply x bb s k]
  rfl

end Cert.KernelIdeal.Bridge

end
-- ==== Proof.KernelRun.lean ====
/-
  The kernel program's run, read: its result is the linear layer of its arguments.

  The program prepares three arrays on the host (the activations with their two leading axes merged, the
  preprocessed weights narrowed to a shorter float format, the bias as a one-row matrix), runs the kernel over the
  grid, and splits the rows of the [8192, 4096] output back into [4, 2048, ·].  The kernel's output array is
  X · Wᵀ + bias row of the three prepared arrays; reshaped, that is the layer
  out[b, s, o] = sum over k of x[b, s, k] · wbin(w)[o, k] + bias[o] of the program's arguments.
-/
import proofs.«100241_j53824530153497_2_alg».proof.Proof.KernelArray
import proofs.«100241_j53824530153497_2_alg».proof.Proof.KernelEntry
import proofs.«100241_j53824530153497_2_alg».proof.Proof.KernelBridge

noncomputable section

open Idealize.ShloMosaic Idealize.ShloMosaic.TcCoe Idealize.ShloMosaic.ValueIdx Idealize.SL.Sem
open Idealize.ShloMosaic.Pipeline (Dat)

namespace Cert.KernelIdeal.Run
open Cert.KernelIdeal Cert.KernelIdeal.Gen

variable (m : (ℓ : Loc nD τ sig) → Buf (Elt Ideal) ℓ) (ρ : Dev nD → PrngReg)

/-- The layer of the program's three arguments, with the kernel program's spelling of the weight preprocessing. -/
def result (c : Dev nD) : Buf (Elt Ideal) ((c : Thread nD τ).loc main_v0) :=
  Cert.Spec.linear (m ((c : Thread nD τ).loc main_arg0))
    (Cert.KernelIdeal.Weights.wbin (F := Ideal) (m ((c : Thread nD τ).loc main_arg1))) (m ((c : Thread nD τ).loc main_arg2))

/-- What the operations after the region leave in the result buffer. -/
theorem tail_value (c : Dev nD) :
    Pipeline.afterTail₀ cfgs (dats m) 0 (V0 m) [hostOps1] c main_v0 = result m c := by
  rw [Cert.KernelIdeal.Entry.tail_entry m c, Cert.KernelIdeal.Array.final m c]
  unfold Cert.KernelIdeal.Accum.X Cert.KernelIdeal.Accum.W Cert.KernelIdeal.Accum.B
  rw [Cert.KernelIdeal.Entry.X_entry m c, Cert.KernelIdeal.Entry.W_entry m c, Cert.KernelIdeal.Entry.B_entry m c]
  exact Cert.KernelIdeal.Bridge.reshape_G_eq_linear _ _ _

/-- Every weakly fair execution terminates with the result buffer at the layer of the arguments, the arguments unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0 (Pipeline.mem_restRefs_of main_v0 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run
end
-- ==== Proof.RefRun.lean ====
/-
  The reference program's run, read back.

  The reference's @main is a straight line of host operations with two calls of module-local functions (the sample
  standard deviation, through the variance and its guard; the final choice between an entry and its rescaled value).
  Unfolding the calls at their sites gives one list of fifty-three operations, each writing a buffer of its own.
  Every weakly fair execution of the program terminates with the result buffer at the composed term of the three
  arguments' launch contents, `result`, and the arguments unchanged.  `result` is the linear layer over the
  preprocessed weight, spelt with the operations themselves: the contraction of the activations' last axis with the
  weight's second axis, plus the bias broadcast along the two leading axes.
-/
import proofs.«100241_j53824530153497_2_alg».proof.Proof.Weights
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The reference's result as a function of its three arguments: the activations contracted with the preprocessed
    weight over the 4096 input features, plus the bias along the last axis. -/
def result (x : FVec F S4x2048x4096 .f32) (w : FVec F S4096x4096 .f32) (b : FVec F S4096 .f32) : FVec F S4x2048x4096 .f32 :=
  addf (Host.dotGeneral dot_S4x2048x4096_S4096x4096_S4x2048x4096_2_1_01_0_n_n none x (Cert.ReferenceIdeal.Weights.wbin w))
    (broadcastInDim S4x2048x4096 ![0, 1, 2] bcast_S1x1x4096_S4x2048x4096_0_1_2 (broadcastInDim S1x1x4096 ![2] bcast_S4096_S1x1x4096_2 b))

/-- @main's fifty-three operations in order, the calls unfolded: five of @main's own (the mean), then the standard
    deviation's twenty-one (the variance's eighteen, its guard's two, the square root), then @main's twenty-two up to
    the rescaled weight, the final choice (one), and the contraction, the bias's two broadcasts and the sum. -/
abbrev ops : List (HloOp τ sig (Elt F)) :=
  [ nullary main_cst (constant S_ .f32 0x00000000#32),
    binary main_arg1 main_cst main_v0 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_0 (constant S_ .f32 0x4B800000#32),
    binary main_v0 main_cst_0 main_v1 (Host.divf : (⟨S_, .f32⟩ : BufTy).Contents (Elt F) → (⟨S_, .f32⟩ : BufTy).Contents (Elt F) → (⟨S_, .f32⟩ : BufTy).Contents (Elt F)),
    nullary main_c (constantI S_ 32 1#32),
    TRef.nullary main_call0_call0.cst (constant S_ .f32 0x00000000#32),
    TRef.binary (.of main_arg1 : TRef sig ⟨S4096x4096, .f32⟩) main_call0_call0.cst main_call0_call0.v0 (fun x v => Host.reduceAdd x v reducesTo_S4096x4096_S_d0_1 h_S_),
    TRef.unary main_call0_call0.v0 main_call0_call0.v1 (broadcastInDim S1x1 ![] bcast_S_S1x1),
    TRef.nullary main_call0_call0.cst_0 (constant S_ .f32 0x4B800000#32),
    TRef.unary main_call0_call0.cst_0 main_call0_call0.v2 (broadcastInDim S1x1 ![] bcast_S_S1x1),
    TRef.binary main_call0_call0.v1 main_call0_call0.v2 main_call0_call0.v3 Host.divf,
    TRef.unary main_call0_call0.v3 main_call0_call0.v4 (broadcastInDim S4096x4096 ![0, 1] bcast_S1x1_S4096x4096_0_1),
    TRef.binary (.of main_arg1 : TRef sig ⟨S4096x4096, .f32⟩) main_call0_call0.v4 main_call0_call0.v5 subf,
    TRef.binary main_call0_call0.v5 main_call0_call0.v5 main_call0_call0.v6 mulf,
    TRef.unary (.of main_c : TRef sig ⟨S_, .i32⟩) main_call0_call0.v7 (sitofp .f32),
    TRef.nullary main_call0_call0.cst_1 (constant S_ .f32 0x4B800000#32),
    TRef.binary main_call0_call0.cst_1 main_call0_call0.v7 main_call0_call0.v8 subf,
    TRef.nullary main_call0_call0.cst_2 (constant S_ .f32 0x00000000#32),
    TRef.binary main_call0_call0.v6 main_call0_call0.cst_2 main_call0_call0.v9 (fun x v => Host.reduceAdd x v reducesTo_S4096x4096_S_d0_1 h_S_),
    TRef.binary main_call0_call0.v9 main_call0_call0.v8 main_call0_call0.v10 Host.divf,
    TRef.nullary main_call0_call0.cst_3 (constant S_ .f32 0x00000000#32),
    TRef.binary main_call0_call0.v8 main_call0_call0.cst_3 main_call0_call0.v11 (cmpf .ogt),
    TRef.nullary main_call0_call0.cst_4 (constant S_ .f32 0x7FC00000#32),
    TRef.unary main_call0_call0.cst_4 main_call0_call0.call0.v0 id,
    TRef.ternary main_call0_call0.v11 main_call0_call0.v10 main_call0_call0.call0.v0 main_call0_call0.call0.v1 select,
    TRef.unary main_call0.call0.call0.v1 main_call0.v1 Host.sqrt,
    nullary main_cst_1 (constant S_ .f32 0x3FFAE148#32),
    binary main_cst_1 main_v2 main_v3 (mulf : (⟨S_, .f32⟩ : BufTy).Contents (Elt F) → (⟨S_, .f32⟩ : BufTy).Contents (Elt F) → (⟨S_, .f32⟩ : BufTy).Contents (Elt F)),
    binary main_v1 main_v3 main_v4 (subf : (⟨S_, .f32⟩ : BufTy).Contents (Elt F) → (⟨S_, .f32⟩ : BufTy).Contents (Elt F) → (⟨S_, .f32⟩ : BufTy).Contents (Elt F)),
    nullary main_cst_2 (constant S_ .f32 0x3FFAE148#32),
    binary main_cst_2 main_v2 main_v5 (mulf : (⟨S_, .f32⟩ : BufTy).Contents (Elt F) → (⟨S_, .f32⟩ : BufTy).Contents (Elt F) → (⟨S_, .f32⟩ : BufTy).Contents (Elt F)),
    binary main_v1 main_v5 main_v6 (addf : (⟨S_, .f32⟩ : BufTy).Contents (Elt F) → (⟨S_, .f32⟩ : BufTy).Contents (Elt F) → (⟨S_, .f32⟩ : BufTy).Contents (Elt F)),
    unary main_v4 main_v7 (broadcastInDim S4096x4096 ![] bcast_S_S4096x4096 : (⟨S_, .f32⟩ : BufTy).Contents (Elt F) → (⟨S4096x4096, .f32⟩ : BufTy).Contents (Elt F)),
    binary main_arg1 main_v7 main_v8 (cmpf .olt : (⟨S4096x4096, .f32⟩ : BufTy).Contents (Elt F) → (⟨S4096x4096, .f32⟩ : BufTy).Contents (Elt F) → (⟨S4096x4096, .i1⟩ : BufTy).Contents (Elt F)),
    unary main_v6 main_v9 (broadcastInDim S4096x4096 ![] bcast_S_S4096x4096 : (⟨S_, .f32⟩ : BufTy).Contents (Elt F) → (⟨S4096x4096, .f32⟩ : BufTy).Contents (Elt F)),
    binary main_arg1 main_v9 main_v10 (cmpf .ogt : (⟨S4096x4096, .f32⟩ : BufTy).Contents (Elt F) → (⟨S4096x4096, .f32⟩ : BufTy).Contents (Elt F) → (⟨S4096x4096, .i1⟩ : BufTy).Contents (Elt F)),
    binary main_v8 main_v10 main_v11 (ori : (⟨S4096x4096, .i1⟩ : BufTy).Contents (Elt F) → (⟨S4096x4096, .i1⟩ : BufTy).Contents (Elt F) → (⟨S4096x4096, .i1⟩ : BufTy).Contents (Elt F)),
    unary main_v11 main_v12 (noti : (⟨S4096x4096, .i1⟩ : BufTy).Contents (Elt F) → (⟨S4096x4096, .i1⟩ : BufTy).Contents (Elt F)),
    unary main_v12 main_v13 (uitofp .f32 : (⟨S4096x4096, .i1⟩ : BufTy).Contents (Elt F) → (⟨S4096x4096, .f32⟩ : BufTy).Contents (Elt F)),
    unary main_arg1 main_v14 (Host.absf : (⟨S4096x4096, .f32⟩ : BufTy).Contents (Elt F) → (⟨S4096x4096, .f32⟩ : BufTy).Contents (Elt F)),
    binary main_v14 main_v13 main_v15 (mulf : (⟨S4096x4096, .f32⟩ : BufTy).Contents (Elt F) → (⟨S4096x4096, .f32⟩ : BufTy).Contents (Elt F) → (⟨S4096x4096, .f32⟩ : BufTy).Contents (Elt F)),
    nullary main_cst_3 (constant S_ .f32 0x00000000#32),
    binary main_v15 main_cst_3 main_v16 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_4 (constant S_ .f32 0x00000000#32),
    binary main_v13 main_cst_4 main_v17 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    binary main_v16 main_v17 main_v18 (Host.divf : (⟨S_, .f32⟩ : BufTy).Contents (Elt F) → (⟨S_, .f32⟩ : BufTy).Contents (Elt F) → (⟨S_, .f32⟩ : BufTy).Contents (Elt F)),
    unary main_v18 main_v19 (broadcastInDim S4096x4096 ![] bcast_S_S4096x4096 : (⟨S_, .f32⟩ : BufTy).Contents (Elt F) → (⟨S4096x4096, .f32⟩ : BufTy).Contents (Elt F)),
    binary main_arg1 main_v19 main_v20 (mulf : (⟨S4096x4096, .f32⟩ : BufTy).Contents (Elt F) → (⟨S4096x4096, .f32⟩ : BufTy).Contents (Elt F) → (⟨S4096x4096, .f32⟩ : BufTy).Contents (Elt F)),
    TRef.ternary (.of main_v11 : TRef sig ⟨S4096x4096, .i1⟩) (.of main_arg1 : TRef sig ⟨S4096x4096, .f32⟩) (.of main_v20 : TRef sig ⟨S4096x4096, .f32⟩) main_call1.v0 select,
    binary main_arg0 main_v21 main_v22 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg2 main_v23 (broadcastInDim S1x1x4096 ![2] bcast_S4096_S1x1x4096_2 : (⟨S4096, .f32⟩ : BufTy).Contents (Elt F) → (⟨S1x1x4096, .f32⟩ : BufTy).Contents (Elt F)),
    unary main_v23 main_v24 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v22 main_v24 main_v25 (addf : (⟨S4x2048x4096, .f32⟩ : BufTy).Contents (Elt F) → (⟨S4x2048x4096, .f32⟩ : BufTy).Contents (Elt F) → (⟨S4x2048x4096, .f32⟩ : BufTy).Contents (Elt F)) ]

-- fifty-three binds re-associated: the rewrite under the chain recurses once per statement
set_option maxRecDepth 1024 in
/-- @main is that straight line: the functions' definitions unfolded at their calls and the records at their
    fields, both sides are one chain of steps once sequencing is reassociated. -/
theorem main_eq (c : Dev nD) : main (F := F) c = seq ops := by
  simp only [main, fn_std.body, fn_var.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Each operation touches TensorCore references only. -/
theorem ops_sub : (ops : List (HloOp τ sig (Elt F))).Forall fun op => op.bufs ⊆ tcRefs τ sig :=
  ⟨nullary_bufs_sub .., binary_bufs_sub .., nullary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., binary_bufs_sub .., nullary_bufs_sub .., binary_bufs_sub .., nullary_bufs_sub .., unary_bufs_sub ..,
    ternary_bufs_sub .., unary_bufs_sub .., nullary_bufs_sub .., binary_bufs_sub .., binary_bufs_sub .., nullary_bufs_sub ..,
    binary_bufs_sub .., binary_bufs_sub .., unary_bufs_sub .., binary_bufs_sub .., unary_bufs_sub .., binary_bufs_sub ..,
    binary_bufs_sub .., unary_bufs_sub .., unary_bufs_sub .., unary_bufs_sub .., binary_bufs_sub .., nullary_bufs_sub ..,
    binary_bufs_sub .., nullary_bufs_sub .., binary_bufs_sub .., binary_bufs_sub .., unary_bufs_sub .., binary_bufs_sub ..,
    ternary_bufs_sub .., binary_bufs_sub .., unary_bufs_sub .., unary_bufs_sub .., binary_bufs_sub ..⟩

/-- The fold of the operations at the result buffer is `result` of the three arguments' contents: each operation's
    result read at its own buffer is its function of its operands' contents, at any other buffer what was there;
    the composed term is `result` with the weight's stages unfolded. -/
theorem out_eq (V : Valuation τ sig (Elt F)) :
    after ops V (main_v25 : DevRef τ sig)
      = result (V (main_arg0 : DevRef τ sig)) (V (main_arg1 : DevRef τ sig)) (V (main_arg2 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- On every device, for any float values, from any memory with zero counters: every weakly fair execution of
    @main terminates with the result buffer at `result` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v25).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The reference's result read at an index, at the extended reals.

  The reference's result is the contraction of the activations' last axis with the preprocessed weight's second
  axis, plus the bias broadcast along the two leading axes.  Read at (b, s, o), the contraction is the sum over the
  4096 input features k of x[b, s, k] * wb[o, k], and the broadcast bias is bias[o]: the linear layer of the
  specification over the preprocessed weight.

  The contraction's dimension numbers have no batch axes, two free axes on the left (the output's first two) and
  one on the right (the output's third).  The first part states, for any dimension numbers without batch axes, where
  a free axis's coordinate comes from; the second part instantiates it for this product.
-/
import proofs.«100241_j53824530153497_2_alg».proof.Proof.RefRun
import proofs.«100241_j53824530153497_2_alg».proof.Proof.Spec
import proofs.«100241_j53824530153497_2_alg».proof.Proof.LibOneAxisDot
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Facts₀

/-! ## A free axis's coordinate, with no batch axes -/

section FreeAxes

variable {sl sr so : Shape} (d : DotDims sl sr so)

/-- No batch axes: a left free axis at position p among the left free axes reads the output's coordinate p. -/
theorem lhsIdx_val_of_free_pos {a : Fin sl.rank} (hb : d.lhsBatch = []) (hn : a ∈ d.lhsNonContracting) {p : Nat}
    (hp : d.lhsNonContracting.idxOf a = p) (h : p < so.rank) (j : so.Idx) (k : d.contr.Idx) :
    (d.lhsIdx j k a).val = (j ⟨p, h⟩).val := by
  have h1 : a ∉ d.lhsBatch := by rw [hb]; exact List.not_mem_nil
  unfold DotDims.lhsIdx
  rw [dif_neg h1, dif_pos hn]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hp])

/-- No batch axes: a right free axis at position q among the right free axes reads the output's coordinate after
    all of the left free axes', at their number plus q. -/
theorem rhsIdx_val_of_free_pos {a : Fin sr.rank} (hb : d.lhsBatch = []) (hb' : d.rhsBatch = [])
    (hn : a ∈ d.rhsNonContracting) {p : Nat} (hp : d.lhsNonContracting.length + d.rhsNonContracting.idxOf a = p)
    (h : p < so.rank) (j : so.Idx) (k : d.contr.Idx) :
    (d.rhsIdx j k a).val = (j ⟨p, h⟩).val := by
  have h1 : a ∉ d.rhsBatch := by rw [hb']; exact List.not_mem_nil
  unfold DotDims.rhsIdx
  rw [dif_neg h1, dif_pos hn]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hp])

end FreeAxes

/-! ## This product -/

/-- The product's dimension numbers: x's axis 2 against the weight's axis 1. -/
abbrev D : DotDims S4x2048x4096 S4096x4096 S4x2048x4096 := dot_S4x2048x4096_S4096x4096_S4x2048x4096_2_1_01_0_n_n

theorem D_rank : D.contr.rank = 1 := rfl
theorem D_size : D.contr.size ⟨0, by rw [D_rank]; exact Nat.one_pos⟩ = 4096 := rfl

/-- The left operand's index at output (b, s, o) and contraction position k is (b, s, k). -/
theorem D_lhsIdx (bb : Fin 4) (s : Fin 2048) (o : Fin 4096) (k : Fin 4096) :
    D.lhsIdx (ix3 bb s o) ((contrEquiv1 D 4096 D_rank D_size).symm k) = ix3 bb s k := by
  funext a
  apply Fin.ext
  match a with
  | ⟨0, _⟩ =>
    exact lhsIdx_val_of_free_pos D rfl (List.mem_cons_self ..) (p := 0) rfl (by decide) _ _
  | ⟨1, _⟩ =>
    exact lhsIdx_val_of_free_pos D rfl (List.mem_cons_of_mem _ (List.mem_cons_self ..)) (p := 1) rfl (by decide) _ _
  | ⟨2, _⟩ =>
    exact (D.lhsIdx_val_of_single (cl := 2) rfl _ _).trans (contrEquiv1_symm_val D 4096 D_rank D_size k)

/-- The right operand's index at output (b, s, o) and contraction position k is (o, k). -/
theorem D_rhsIdx (bb : Fin 4) (s : Fin 2048) (o : Fin 4096) (k : Fin 4096) :
    D.rhsIdx (ix3 bb s o) ((contrEquiv1 D 4096 D_rank D_size).symm k) = ix2 o k := by
  funext a
  apply Fin.ext
  match a with
  | ⟨0, _⟩ =>
    exact rhsIdx_val_of_free_pos D rfl rfl (List.mem_cons_self ..) (p := 2) rfl (by decide) _ _
  | ⟨1, _⟩ =>
    exact (D.rhsIdx_val_of_single (cr := 1) rfl _ _).trans (contrEquiv1_symm_val D 4096 D_rank D_size k)

/-- The bias broadcast to the result's shape, at (b, s, o), is bias[o]. -/
theorem bias_apply (b : FVec Ideal S4096 .f32) (bb : Fin 4) (s : Fin 2048) (o : Fin 4096) :
    broadcastInDim S4x2048x4096 ![0, 1, 2] bcast_S1x1x4096_S4x2048x4096_0_1_2
      (broadcastInDim S1x1x4096 ![2] bcast_S4096_S1x1x4096_2 b) (ix3 bb s o) = b (ix1 o) := by
  unfold broadcastInDim
  refine congrArg b (funext fun a => ?_)
  match a with
  | ⟨0, _⟩ => exact Fin.ext rfl

/-- The reference's result is the specification's linear layer over the preprocessed weight. -/
theorem result_eq_linear (x : FVec Ideal S4x2048x4096 .f32) (w : FVec Ideal S4096x4096 .f32) (b : FVec Ideal S4096 .f32) :
    Cert.ReferenceIdeal.RefRun.result (F := Ideal) x w b = Cert.Spec.linear x (Cert.ReferenceIdeal.Weights.wbin (F := Ideal) w) b := by
  funext i
  obtain ⟨bb, s, o, rfl⟩ : ∃ (bb : Fin 4) (s : Fin 2048) (o : Fin 4096), i = ix3 bb s o := ⟨i 0, i 1, i 2, eq_ix3 i⟩
  rw [Cert.Spec.linear_apply]
  unfold Cert.ReferenceIdeal.RefRun.result
  show Host.dotGeneral D none x (Cert.ReferenceIdeal.Weights.wbin (F := Ideal) w) (ix3 bb s o)
      + broadcastInDim S4x2048x4096 ![0, 1, 2] bcast_S1x1x4096_S4x2048x4096_0_1_2
          (broadcastInDim S1x1x4096 ![2] bcast_S4096_S1x1x4096_2 b) (ix3 bb s o) = _
  rw [bias_apply b bb s o,
    Cert.Lib.OneAxisDot.dotGeneral_apply_at D 4096 D_rank D_size none x _ (ix3 bb s o)
      (fun k => ix3 bb s k) (fun k => ix2 o k) (D_lhsIdx bb s o) (D_rhsIdx bb s o)]

end Cert.ReferenceIdeal.RefValue

end
-- ==== Proof.LibBitReduce.lean ====
/-
  Folds of one-bit words, for any shapes.

  A bitwise-or reduction of one-bit words over ONE axis started from 0, read at a reduced index, is 1 exactly when
  some word along that axis is 1. A sum, started from 0, of one-bit words widened to 32 bits is the number of ones
  among them, as a 32-bit word. Both are folds of a commutative associative operation over a finite range, and both
  follow by inserting one index at a time.
-/
import Idealize.ShloMosaic.PureOps.Reduce
import Idealize.ShloMosaic.Lib.ValueIdx

noncomputable section

open scoped BigOperators

namespace Cert.Lib.BitReduce

open Idealize.ShloMosaic

/-- A one-bit word is 0 or 1. -/
theorem bit_cases (b : BitVec 1) : b = 0#1 ∨ b = 1#1 := by
  by_cases h : b = 1#1
  · exact Or.inr h
  · exact Or.inl (ValueIdx.eq_zero_of_ne_one h)

/-- The or of two one-bit words is 1 exactly when one of them is. -/
theorem ori_eq_one_iff (x y : BitVec 1) : IntOp.ori x y = 1#1 ↔ x = 1#1 ∨ y = 1#1 := by
  rcases bit_cases x with hx | hx <;> rcases bit_cases y with hy | hy <;> subst hx <;> subst hy <;> decide

/-- The and of two one-bit words is 1 exactly when both are. -/
theorem andi_eq_one_iff (x y : BitVec 1) : IntOp.andi x y = 1#1 ↔ x = 1#1 ∧ y = 1#1 := by
  rcases bit_cases x with hx | hx <;> rcases bit_cases y with hy | hy <;> subst hx <;> subst hy <;> decide

/-- The complement of a one-bit word is 1 exactly when the word is not. -/
theorem noti_eq_one_iff (b : BitVec 1) : ~~~b = 1#1 ↔ ¬ b = 1#1 := by
  rcases bit_cases b with h | h <;> subst h <;> decide

/-- The equality comparison of two words is 1 exactly when they are equal. -/
theorem cmpi_eq_one_iff {w : Nat} (x y : BitVec w) : IntOp.cmpi .eq x y = 1#1 ↔ x = y := by
  unfold IntOp.cmpi
  by_cases h : x = y
  · subst h; simp
  · have hb : (x == y) = false := beq_eq_false_iff_ne.2 h
    show BitVec.ofBool (x == y) = 1#1 ↔ x = y
    rw [hb]
    exact ⟨fun e => absurd e (by decide), fun e => absurd e h⟩

/-- Two numbers below 2^32 with the same 32-bit word are equal. -/
theorem ofNat32_inj {a b : Nat} (ha : a < 2 ^ 32) (hb : b < 2 ^ 32) (h : BitVec.ofNat 32 a = BitVec.ofNat 32 b) : a = b := by
  have e := congrArg BitVec.toNat h
  rwa [BitVec.toNat_ofNat, BitVec.toNat_ofNat, Nat.mod_eq_of_lt ha, Nat.mod_eq_of_lt hb] at e

/-- A fold of or from 0 over a finite set of one-bit words is 1 exactly when some word of the set is 1. -/
theorem fold_ori_eq_one_iff {ι : Type} [DecidableEq ι] (s : Finset ι) (f : ι → BitVec 1) :
    s.fold IntOp.ori 0#1 f = 1#1 ↔ ∃ k ∈ s, f k = 1#1 := by
  induction s using Finset.induction_on with
  | empty => simp
  | insert a s ha ih =>
    rw [Finset.fold_insert ha, ori_eq_one_iff, ih]
    constructor
    · rintro (h | ⟨k, hk, hf⟩)
      · exact ⟨a, Finset.mem_insert_self a s, h⟩
      · exact ⟨k, Finset.mem_insert_of_mem hk, hf⟩
    · rintro ⟨k, hk, hf⟩
      rcases Finset.mem_insert.1 hk with rfl | hk
      · exact Or.inl hf
      · exact Or.inr ⟨k, hk, hf⟩

/-- The host's one-operand reduce with an or body over one axis of one-bit words, its initial value the constant 0,
    at reduced index j, is 1 exactly when the operand is 1 at j with some coordinate k put back. -/
theorem hostOrReduce_single {s t u : Shape} {a : Fin s.rank} (x : IVec s 1) (h' : s.ReducesTo [a] t)
    (h : s.Reduces [a] t) (hu : 0 < u.numel) (j : t.Idx) :
    Host.reduce IntOp.ori x (constantI u 1 0#1) h' hu j = 1#1 ↔ ∃ k : Fin (s.size a), x (h.lift j k) = 1#1 := by
  rw [Host.reduce_eq_fold_single IntOp.ori x _ h' h hu]
  show (Finset.univ : Finset (Fin (s.size a))).fold IntOp.ori 0#1 (fun k => x (h.lift j k)) = 1#1 ↔ _
  rw [fold_ori_eq_one_iff]
  simp only [Finset.mem_univ, true_and]

/-- A one-bit word widened to 32 bits is 1 or 0 with it. -/
theorem setWidth_one : (1#1 : BitVec 1).setWidth 32 = 1#32 := by decide
theorem setWidth_zero : (0#1 : BitVec 1).setWidth 32 = 0#32 := by decide

/-- A sum from 0 of widened one-bit words over a finite set is the number of ones in the set, as a word. -/
theorem fold_addi_setWidth_eq_card {ι : Type} [DecidableEq ι] (s : Finset ι) (b : ι → BitVec 1) :
    s.fold IntOp.addi 0#32 (fun k => (b k).setWidth 32) = BitVec.ofNat 32 (s.filter fun k => b k = 1#1).card := by
  induction s using Finset.induction_on with
  | empty => simp
  | insert a s ha ih =>
    rw [Finset.fold_insert ha, ih, Finset.filter_insert]
    rcases bit_cases (b a) with h0 | h1
    · rw [if_neg (by rw [h0]; decide), h0, setWidth_zero]
      show 0#32 + _ = _
      rw [BitVec.zero_add]
    · rw [if_pos h1, h1, setWidth_one,
        Finset.card_insert_of_notMem (fun hm => ha (Finset.mem_filter.1 hm).1)]
      show 1#32 + _ = _
      rw [Nat.add_comm, BitVec.ofNat_add]

/-- The host's one-operand reduce with an addition body over one axis of widened one-bit words, its initial value the
    constant 0, at reduced index j, is the number of coordinates k at which the bit at j with k put back is 1. -/
theorem hostCountReduce_single {s t u : Shape} {a : Fin s.rank} (b : IVec s 1) (h' : s.ReducesTo [a] t)
    (h : s.Reduces [a] t) (hu : 0 < u.numel) (j : t.Idx) :
    Host.reduce IntOp.addi (fun i => (b i).setWidth 32) (constantI u 32 0#32) h' hu j
      = BitVec.ofNat 32 (Finset.univ.filter fun k : Fin (s.size a) => b (h.lift j k) = 1#1).card := by
  rw [Host.reduce_eq_fold_single IntOp.addi _ _ h' h hu]
  exact fold_addi_setWidth_eq_card Finset.univ (fun k => b (h.lift j k))

end Cert.Lib.BitReduce

end
-- ==== Proof.LibCountWord.lean ====
/-
  A small count as a 32-bit word, read back signed.

  The integer sum, from 0, of a whole array of one-bit words widened to 32 bits is the number of ones in it.

  A number below 2^31 written as a 32-bit word and read as a signed integer is the number itself; the signed maximum
  of that word and the word 1, read signed, is the larger of the number and 1; and, as extended reals, the larger of
  the number and 1 is the maximum of their images.
-/
import proofs.«100241_j53824530153497_2_alg».proof.Proof.LibBitReduce
import Idealize.ShloMosaic.PureOps.Ideal.Laws
import Idealize.ShloMosaic.PureOps.Reduce

noncomputable section

namespace Cert.Lib.CountWord

open Idealize.ShloMosaic

/-- The host's one-operand reduce with an addition body over EVERY axis of an array of widened one-bit words, its
    initial value the constant 0: the result has one index, every operand index reduces into it, and the sum is the
    number of ones in the whole array, as a word. -/
theorem hostCountReduce_total {s t u : Shape} {axes : List (Fin s.rank)} [Subsingleton t.Idx] (b : IVec s 1)
    (h' : s.ReducesTo axes t) (hu : 0 < u.numel) (j : t.Idx) :
    Host.reduce IntOp.addi (fun i => (b i).setWidth 32) (constantI u 32 0#32) h' hu j
      = BitVec.ofNat 32 (Finset.univ.filter fun i : s.Idx => b i = 1#1).card := by
  rw [Host.reduce_eq_fold IntOp.addi _ _ h' hu j, Finset.filter_true_of_mem (fun i _ => Subsingleton.elim _ _)]
  exact Cert.Lib.BitReduce.fold_addi_setWidth_eq_card Finset.univ b

/-- A number below 2^31, as a 32-bit word read signed, is itself. -/
theorem toInt_ofNat32 {n : Nat} (hn : n < 2 ^ 31) : (BitVec.ofNat 32 n).toInt = (n : ℤ) := by
  have hN : (BitVec.ofNat 32 n).toNat = n := by
    rw [BitVec.toNat_ofNat]
    exact Nat.mod_eq_of_lt (lt_trans hn (by norm_num))
  have h2 : 2 * (BitVec.ofNat 32 n).toNat < 2 ^ 32 := by
    rw [hN]
    have : (2 : Nat) ^ 32 = 2 * 2 ^ 31 := by norm_num
    omega
  rw [BitVec.toInt_eq_toNat_of_lt h2, hN]

/-- The signed maximum of such a word and the word 1, read signed, is the larger of the number and 1. -/
theorem toInt_maxsi_one {n : Nat} (hn : n < 2 ^ 31) :
    (IntOp.maxsi (BitVec.ofNat 32 n) 1#32).toInt = max (n : ℤ) 1 := by
  unfold IntOp.maxsi
  have h1 : (1#32 : BitVec 32).toInt = 1 := BitVec.toInt_one (by decide)
  by_cases h : (1#32 : BitVec 32).slt (BitVec.ofNat 32 n) = true
  · rw [if_pos h, toInt_ofNat32 hn]
    have hlt := BitVec.slt_iff_toInt_lt.1 h
    rw [h1, toInt_ofNat32 hn] at hlt
    exact (max_eq_left (le_of_lt hlt)).symm
  · rw [if_neg h, h1]
    have hle : (n : ℤ) ≤ 1 := by
      by_contra hc
      exact h (BitVec.slt_iff_toInt_lt.2 (by rw [h1, toInt_ofNat32 hn]; exact lt_of_not_ge hc))
    exact (max_eq_right hle).symm

/-- The larger of a natural number and 1, as an extended real, is the maximum of the two as extended reals. -/
theorem coe_max_one (n : ℕ) : (((max (n : ℤ) 1 : ℤ) : ℝ) : EReal) = max (((n : ℝ)) : EReal) 1 := by
  rw [(Int.cast_mono (R := ℝ)).map_max, EReal.coe_strictMono.monotone.map_max, Int.cast_natCast, Int.cast_one,
    EReal.coe_one]

end Cert.Lib.CountWord

end
-- ==== Proof.WeightStats.lean ====
/-
  The two spellings of the weight preprocessing are one function at the extended reals.

  Both programs turn the 4096 x 4096 weight matrix w into the same matrix: outliers (entries below mean - 1.96 std or
  above mean + 1.96 std) kept, every other entry multiplied by the mean absolute value of the non-outliers. The two
  spellings (Weights.lean) differ in three places only, and at each the two agree for EVERY extended real, the
  infinities included, so no finiteness of w is assumed:

  * the divisor n - 1 of the sample variance. One program writes the literal 16777215; the other subtracts the integer 1,
    read as a float, from 2^24 = 16777216 and guards the division by "n - 1 > 0". The bit patterns denote exactly
    16777216 and 16777215, the difference is exact, and 16777215 > 0, so the guard always takes the division.
    (Before that, one program reads the mean through a 1 x 1 array: the same element of the same rank-0 array.)
  * the number of non-outliers. One program widens the complemented mask bits to 32-bit words, adds them as integers from
    0 and reads the word as a signed integer; the other reads each bit as the float 1 or 0 and adds those from 0. Both are
    the number n of ones among the complemented bits: n <= 2^24 < 2^31, so the word is n and its signed reading is n; and
    a finite sum of the reals 1 and 0 is the number of ones.
  * the sum of the absolute values of the non-outliers. One program selects the constant 0 at an outlier and |w i|
    elsewhere; the other multiplies |w i| by the float 1 or 0. At an outlier |w i| * 0 = 0 for every |w i|, the infinity
    included; elsewhere |w i| * 1 = |w i|. The two summands are the same function, so the sums agree.
-/
import proofs.«100241_j53824530153497_2_alg».proof.Proof.Weights
import proofs.«100241_j53824530153497_2_alg».proof.Proof.LibCountWord
import Idealize.ShloMosaic.PureOps.Ideal.Laws
import Idealize.ShloMosaic.Lib.ValueIdx

noncomputable section

open scoped BigOperators

namespace Cert.WeightStats

open Idealize.ShloMosaic

/-- The weight matrix's shape and the scalar shape (the two programs' names for each are the same shape). -/
abbrev S := Cert.KernelIdeal.S4096x4096
abbrev S0 := Cert.KernelIdeal.S_

/-- The scalar shape has one index. -/
instance subsingletonIdx0 : Subsingleton S0.Idx := ⟨fun a b => funext fun d => d.elim0⟩

/-! ## Mean and deviations -/

/-- The two means are the same term. -/
theorem mean_eq (w : FVec Ideal S .f32) :
    Cert.KernelIdeal.Weights.mean (F := Ideal) w = Cert.ReferenceIdeal.Weights.mean (F := Ideal) w := rfl

/-- The deviations: both subtract (sum at the one scalar index) / (2^24 at the one scalar index) from every entry, one
    directly and one through a 1 x 1 array; the two ways of writing the one scalar index are equal. -/
theorem dev_eq (w : FVec Ideal S .f32) :
    Cert.KernelIdeal.Weights.dev (F := Ideal) w = Cert.ReferenceIdeal.Weights.dev (F := Ideal) w := by
  funext j
  show FloatOps.subf (w j) (FloatOps.hostDivf _ _) = FloatOps.subf (w j) (FloatOps.hostDivf _ _)
  congr 2

/-! ## The divisor n - 1 -/

/-- The pattern 0x4B800000 is 2^24 = 16777216 exactly. -/
theorem ofBits_two24 : Ideal.ofBits .f32 0x4B800000#32 = ((16777216 : ℝ) : EReal) := by
  simp [Ideal.ofBits, Ideal.ieee, -EReal.coe_mul]; norm_num

/-- The pattern 0x4B7FFFFF is 2^24 - 1 = 16777215 exactly. -/
theorem ofBits_two24m1 : Ideal.ofBits .f32 0x4B7FFFFF#32 = ((16777215 : ℝ) : EReal) := by
  simp [Ideal.ofBits, Ideal.ieee, -EReal.coe_mul]

/-- 2^24 minus the integer 1 read as a float is the literal 16777215: the subtraction is exact. -/
theorem nm1_eq : Cert.ReferenceIdeal.Weights.nm1 (F := Ideal) = constant S0 .f32 0x4B7FFFFF#32 := by
  funext i
  show Ideal.ofBits .f32 0x4B800000#32 - (((1#32 : BitVec 32).toInt : ℝ) : EReal) = Ideal.ofBits .f32 0x4B7FFFFF#32
  rw [ofBits_two24, ofBits_two24m1, BitVec.toInt_one (by decide), ← EReal.coe_sub]
  norm_num

/-- The guard of the variance always takes the division: n - 1 = 16777215 > 0. -/
theorem var_eq (w : FVec Ideal S .f32) :
    Cert.ReferenceIdeal.Weights.var (F := Ideal) w
      = Host.divf (Host.reduceAdd (mulf (Cert.ReferenceIdeal.Weights.dev w) (Cert.ReferenceIdeal.Weights.dev w))
          (constant S0 .f32 0x00000000#32) Cert.ReferenceIdeal.Facts₀.reducesTo_S4096x4096_S_d0_1 Cert.ReferenceIdeal.Facts₀.h_S_)
          Cert.ReferenceIdeal.Weights.nm1 := by
  funext i
  have hc : Ideal.cmp .ogt (Cert.ReferenceIdeal.Weights.nm1 (F := Ideal) i) (Ideal.ofBits .f32 0x00000000#32) = 1#1 := by
    rw [nm1_eq]
    show Ideal.cmp .ogt (Ideal.ofBits .f32 0x4B7FFFFF#32) (Ideal.ofBits .f32 0x00000000#32) = 1#1
    rw [ofBits_two24m1, Ideal.ofBits_zero_f32]
    have h : (0 : EReal) < ((16777215 : ℝ) : EReal) := by exact_mod_cast (by norm_num : (0 : ℝ) < 16777215)
    simp [Ideal.cmp, h]
  show Scalar.select (Ideal.cmp .ogt (Cert.ReferenceIdeal.Weights.nm1 (F := Ideal) i) (Ideal.ofBits .f32 0x00000000#32)) _ _ = _
  rw [hc]
  exact ValueIdx.select_one _ _

/-- The two standard deviations agree. -/
theorem std_eq (w : FVec Ideal S .f32) :
    Cert.KernelIdeal.Weights.std (F := Ideal) w = Cert.ReferenceIdeal.Weights.std (F := Ideal) w := by
  unfold Cert.KernelIdeal.Weights.std Cert.ReferenceIdeal.Weights.std
  rw [var_eq, nm1_eq, dev_eq]

/-- Hence the two outlier masks agree: the same term of the weight, the mean and the deviation. -/
theorem outl_eq (w : FVec Ideal S .f32) :
    Cert.KernelIdeal.Weights.outl (F := Ideal) w = Cert.ReferenceIdeal.Weights.outl (F := Ideal) w := by
  unfold Cert.KernelIdeal.Weights.outl Cert.ReferenceIdeal.Weights.outl
  rw [mean_eq, std_eq]
  rfl

/-! ## The number of non-outliers -/

/-- The coercion of the reals into the extended reals goes through a finite sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A one-bit word read unsigned, as a real, is 1 when the bit is 1 and 0 otherwise. -/
theorem bit_toNat (b : BitVec 1) : (b.toNat : ℝ) = if b = 1#1 then 1 else 0 := by
  rcases Cert.Lib.BitReduce.bit_cases b with h | h <;> subst h <;> simp

/-- The sum over all indices of one-bit words read unsigned, as extended reals, is the number of ones. -/
theorem sum_bits {ι : Type} [Fintype ι] [DecidableEq ι] (b : ι → BitVec 1) :
    ∑ i, (((b i).toNat : ℝ) : EReal) = (((Finset.univ.filter fun i => b i = 1#1).card : ℝ) : EReal) := by
  rw [coe_sum]
  congr 1
  simp only [bit_toNat]
  rw [Finset.sum_boole]

/-- A set of indices of the 4096 x 4096 array has fewer than 2^31 members. -/
theorem card_lt (A : Finset S.Idx) : A.card < 2 ^ 31 := by
  have h1 : A.card ≤ Fintype.card S.Idx := Finset.card_le_univ _
  rw [Shape.card_idx] at h1
  have h2 : S.numel = 16777216 := by simp [Shape.numel, Fin.prod_univ_two]
  rw [h2] at h1
  exact lt_of_le_of_lt h1 (by norm_num)

/-- The two counts of the non-outliers agree for every mask: both are the number of ones among the complemented bits. -/
theorem count_eq (o : IVec S 1) :
    Cert.KernelIdeal.Weights.count (F := Ideal) o = Cert.ReferenceIdeal.Weights.count (F := Ideal) o := by
  funext j
  have hk : Host.reduce IntOp.addi (extui 32 (noti o) Cert.KernelIdeal.Facts₀.natLt_1_32) (constantI S0 32 0#32)
      Cert.KernelIdeal.Facts₀.reducesTo_S4096x4096_S_d0_1 Cert.KernelIdeal.Facts₀.h_S_ j
        = BitVec.ofNat 32 (Finset.univ.filter fun i : S.Idx => noti o i = 1#1).card :=
    Cert.Lib.CountWord.hostCountReduce_total (noti o) _ _ j
  show (((Host.reduce IntOp.addi (extui 32 (noti o) Cert.KernelIdeal.Facts₀.natLt_1_32) (constantI S0 32 0#32)
      Cert.KernelIdeal.Facts₀.reducesTo_S4096x4096_S_d0_1 Cert.KernelIdeal.Facts₀.h_S_ j).toInt : ℝ) : EReal)
    = Ideal.hostReduceAdd Cert.ReferenceIdeal.Facts₀.reducesTo_S4096x4096_S_d0_1 (uitofp (F := Ideal) .f32 (noti o)) (Ideal.ofBits .f32 0x00000000#32) j
  rw [hk, Cert.Lib.CountWord.toInt_ofNat32 (card_lt _), Ideal.hostReduceAdd_total _ (fun b => b.elim0),
    Ideal.ofBits_zero_f32, zero_add]
  show _ = ∑ i, (((noti o i).toNat : ℝ) : EReal)
  rw [sum_bits, Int.cast_natCast]

/-! ## The sum of the absolute values of the non-outliers -/

/-- The two sums agree for every mask: the summands are equal entry by entry, 0 at an outlier (|w i| * 0 = 0 even at the
    infinity) and |w i| elsewhere. -/
theorem asum_eq (w : FVec Ideal S .f32) (o : IVec S 1) :
    Cert.KernelIdeal.Weights.asum (F := Ideal) w o = Cert.ReferenceIdeal.Weights.asum (F := Ideal) w o := by
  have hop : select o (broadcastInDim S ![] Cert.KernelIdeal.Facts₀.bcast_S_S4096x4096 (constant (F := Ideal) S0 .f32 0x00000000#32))
      (Host.absf w) = mulf (Host.absf w) (Cert.ReferenceIdeal.Weights.keep (F := Ideal) o) := by
    funext i
    show Scalar.select (o i) (Ideal.ofBits .f32 0x00000000#32) (max (w i) (-(w i)))
      = max (w i) (-(w i)) * ((((~~~(o i)).toNat : ℝ)) : EReal)
    rcases Cert.Lib.BitReduce.bit_cases (o i) with h | h
    · rw [h, ValueIdx.select_zero]
      simp
    · rw [h, ValueIdx.select_one, Ideal.ofBits_zero_f32]
      simp
  unfold Cert.KernelIdeal.Weights.asum Cert.ReferenceIdeal.Weights.asum
  rw [hop]

/-! ## The preprocessed weight -/

/-- The two preprocessed weights are the same matrix, for every weight matrix of extended reals. -/
theorem wbin_eq (w : FVec Ideal Cert.KernelIdeal.S4096x4096 .f32) :
    Cert.KernelIdeal.Weights.wbin (F := Ideal) w = Cert.ReferenceIdeal.Weights.wbin (F := Ideal) w := by
  unfold Cert.KernelIdeal.Weights.wbin Cert.ReferenceIdeal.Weights.wbin
  rw [outl_eq, count_eq, asum_eq]
  rfl

end Cert.WeightStats

end
-- ==== Proof.lean ====
/-
  The certificate: a Pallas linear layer with outlier-aware weight rescaling against its jnp reference.

  Both programs turn the weight matrix w into wbin(w) (entries beyond 1.96 sample standard deviations from the mean
  are kept; every other entry is multiplied by the mean absolute value of those others) and then compute
  out[b, s, o] = sum over k of x[b, s, k] · wbin(w)[o, k] + bias[o].  The kernel does the product blockwise, sixteen
  column blocks accumulated in scratch memory per output block, on inputs it first reshapes; the reference does it
  as one contraction.  At the extended reals the three places where the two programs' weight preprocessing differs
  (how n - 1 arises, how the kept entries are counted, how the outliers are left out of a sum) give equal values,
  and a sum of 4096 products is the same however it is cut into stretches.  No finiteness of the inputs is used.

  frame claims: the two kernel programs' are the generated frames; the reference's is its run with the result
  forgotten.  preserves: the idealization rewrote nothing.  algebraic: both runs end at the same function of
  arguments that agree.
-/
import proofs.«100241_j53824530153497_2_alg».proof.Defs
import proofs.«100241_j53824530153497_2_alg».proof.Proof.Gen.Kernel
import proofs.«100241_j53824530153497_2_alg».proof.Proof.Gen.Kernel.Skeleton
import proofs.«100241_j53824530153497_2_alg».proof.Proof.Gen.Kernel.Launch
import proofs.«100241_j53824530153497_2_alg».proof.Proof.Gen.Kernel.Points
import proofs.«100241_j53824530153497_2_alg».proof.Proof.Gen.Kernel.Frame
import proofs.«100241_j53824530153497_2_alg».proof.Proof.Gen.KernelIdeal
import proofs.«100241_j53824530153497_2_alg».proof.Proof.Gen.KernelIdeal.Skeleton
import proofs.«100241_j53824530153497_2_alg».proof.Proof.Gen.KernelIdeal.Launch
import proofs.«100241_j53824530153497_2_alg».proof.Proof.Gen.KernelIdeal.Points
import proofs.«100241_j53824530153497_2_alg».proof.Proof.Gen.KernelIdeal.Frame
import proofs.«100241_j53824530153497_2_alg».proof.Proof.Gen.ReferenceIdeal
import proofs.«100241_j53824530153497_2_alg».proof.Proof.Gen.Pre_finite_inputs
import proofs.«100241_j53824530153497_2_alg».proof.Proof.KernelRun
import proofs.«100241_j53824530153497_2_alg».proof.Proof.RefRun
import proofs.«100241_j53824530153497_2_alg».proof.Proof.RefValue
import proofs.«100241_j53824530153497_2_alg».proof.Proof.WeightStats
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end at the linear layer of their arguments; the arguments agree, and the two spellings of the weight
    preprocessing are one function. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2, Cert.ReferenceIdeal.RefValue.result_eq_linear,
    ← Cert.WeightStats.wbin_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
